-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S3x512x512 : Shape := ⟨3, ![3, 512, 512]⟩
abbrev S3x512 : Shape := ⟨2, ![3, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_
  bcast_S_S3x512 : S_.BroadcastsInDim S3x512 (![] : Fin 0 → Fin S3x512.rank)
  reducesTo_S3x512_S_d0_1 : S3x512.ReducesTo [0, 1] S_

variable [Facts]

def fn_part2 {F : FTy → Type} [FloatOps F] (main_arg7 : FVec F S3x512 .f32) (main_arg8 : FVec F S3x512 .f32) (main_arg9 : FVec F S3x512 .f32) (main_v33 : IVec S_ 1) : IVec S_ 1 :=
  let main_v34 : FVec F S3x512 .f32 := Host.absf main_arg7
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg8
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S3x512 .f32 := Host.absf main_arg9
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  main_v48

def fn_part1 {F : FTy → Type} [FloatOps F] (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3x512x512 .f32 := Host.absf main_arg4
  let main_cst_6 : FVec F S_ .f32 := constant S_ .f32 0x7F800000#32
  let main_v20 : FVec F S3x512x512 .f32 := broadcastInDim S3x512x512 ![] bcast_S_S3x512x512 main_cst_6
  let main_v21 : IVec S3x512x512 1 := cmpf .olt main_v19 main_v20
  let main_c_7 : IVec S_ 1 := constantI S_ 1 1#1
  let main_v22 : IVec S_ 1 := (fun x v => Host.reduce IntOp.andi x v reducesTo_S3x512x512_S_d0_1_2 h_S_) main_v21 main_c_7
  let main_v23 : IVec S_ 1 := andi main_v18 main_v22
  let main_v24 : FVec F S3x512 .f32 := Host.absf main_arg5
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg6
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S32768x512 .f32) (main_arg2 : FVec F S3x512x512 .f32) (main_arg3 : FVec F S3x512 .f32) (main_arg4 : FVec F S3x512x512 .f32) (main_arg5 : FVec F S3x512 .f32) (main_arg6 : FVec F S3x512 .f32) (main_arg7 : FVec F S3x512 .f32) (main_arg8 : FVec F S3x512 .f32) (main_arg9 : FVec F S3x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S3x512x512 .f32 := Host.absf main_arg2
  let main_cst_2 : FVec F S_ .f32 := constant S_ .f32 0x7F800000#32
  let main_v10 : FVec F S3x512x512 .f32 := broadcastInDim S3x512x512 ![] bcast_S_S3x512x512 main_cst_2
  let main_v11 : IVec S3x512x512 1 := cmpf .olt main_v9 main_v10
  let main_c_3 : IVec S_ 1 := constantI S_ 1 1#1
  let main_v12 : IVec S_ 1 := (fun x v => Host.reduce IntOp.andi x v reducesTo_S3x512x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S3x512x512 : Shape := ⟨3, ![3, 512, 512]⟩
abbrev S3x512 : Shape := ⟨2, ![3, 512]⟩
abbrev S512x3x512 : Shape := ⟨3, ![512, 3, 512]⟩
abbrev S512x1536 : Shape := ⟨2, ![512, 1536]⟩
abbrev S1x1536 : Shape := ⟨2, ![1, 1536]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S3x512x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S512x3x512, .f32⟩
  | .hbm, ⟨11, _⟩ => ⟨S512x1536, .f32⟩
  | .hbm, ⟨12, _⟩ => ⟨S512x1536, .bf16⟩
  | .hbm, ⟨13, _⟩ => ⟨S512x3x512, .f32⟩
  | .hbm, ⟨14, _⟩ => ⟨S512x1536, .f32⟩
  | .hbm, ⟨15, _⟩ => ⟨S512x1536, .bf16⟩
  | .hbm, ⟨16, _⟩ => ⟨S1x1536, .f32⟩
  | .hbm, ⟨17, _⟩ => ⟨S1x1536, .f32⟩
  | .hbm, ⟨18, _⟩ => ⟨S1x1536, .f32⟩
  | .hbm, ⟨19, _⟩ => ⟨S1x1536, .f32⟩
  | .hbm, ⟨20, _⟩ => ⟨S1x1536, .f32⟩
  | .hbm, ⟨21, _⟩ => ⟨S1x1536, .f32⟩
  | .hbm, ⟨22, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x1536, .f32⟩
  | .local _ .vmem, ⟨12, _⟩ => ⟨S512x512, .f32⟩
  | .local _ .vmem, ⟨13, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S3x512x512_S512x3x512_2_0_1 : S3x512x512.Transposes [2, 0, 1] S512x3x512
  shapeCasts_S512x3x512_S512x1536 : S512x3x512.ShapeCasts S512x1536
  bitsLt_bf16_f32 : FTy.bits .bf16 < FTy.bits .f32
  shapeCasts_S3x512_S1x1536 : S3x512.ShapeCasts S1x1536
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  inb_S1x1536_S1x512_0_0 : ∀ a, (![0, 0] : Fin 2 → Nat) a + S1x512.size a ≤ S1x1536.size a
  h_S1x512 : 0 < S1x512.numel
  shapeCasts_S1x512_S1x512 : S1x512.ShapeCasts S1x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  slices_S512x1536_o0_512_S512x512 : S512x1536.Slices ![0, 512] S512x512
  inb_S1x1536_S1x512_0_512 : ∀ a, (![0, 512] : Fin 2 → Nat) a + S1x512.size a ≤ S1x1536.size a
  slices_S512x1536_o0_1024_S512x512 : S512x1536.Slices ![0, 1024] S512x512
  inb_S1x1536_S1x512_0_1024 : ∀ a, (![0, 1024] : Fin 2 → Nat) a + S1x512.size a ≤ S1x1536.size a
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1536.size a ≤ S1x1536.size a
  hwx0_9 : ∀ i : grid0.Coords, EltTy.bits .f32 = 32 ∨ (Rect.block (s := S1x1536) S1x1536.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S32768x512.size a
  hwx0_10 : ∀ i : grid0.Coords, EltTy.bits .f32 = 32 ∨ (Rect.block (s := S32768x512) S512x512.size (cc0_transform_10 i) (hinb0_10 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32768x512 : Shape := ⟨2, ![32768, 512]⟩
abbrev S3x512x512 : Shape := ⟨3, ![3, 512, 512]⟩
abbrev S3x512 : Shape := ⟨2, ![3, 512]⟩
abbrev S32768x3x512 : Shape := ⟨3, ![32768, 3, 512]⟩
abbrev S1x3x512 : Shape := ⟨3, ![1, 3, 512]⟩
abbrev S_ : Shape := ⟨0, ![]⟩
abbrev S32768x3 : Shape := ⟨2, ![32768, 3]⟩
abbrev S32768x3x1 : Shape := ⟨3, ![32768, 3, 1]⟩
abbrev S32768x1x512 : Shape := ⟨3, ![32768, 1, 512]⟩

abbrev nBuf : Space → Nat
  | .hbm => 115
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S3x512x512, .f32⟩
  | .hbm, ⟨3, _⟩ => ⟨S3x512, .f32⟩
  | .hbm, ⟨4, _⟩ => ⟨S3x512x512, .f32⟩
  | .hbm, ⟨5, _⟩ => ⟨S3x512, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S32768x3x512, .f32⟩
  | .hbm, ⟨11, _⟩ => ⟨S1x3x512, .f32⟩
  | .hbm, ⟨12, _⟩ => ⟨S32768x3x512, .f32⟩
  | .hbm, ⟨13, _⟩ => ⟨S32768x3x512, .f32⟩
  | .hbm, ⟨14, _⟩ => ⟨S_, .f32⟩
  | .hbm, ⟨15, _⟩ => ⟨S32768x3, .f32⟩
  | .hbm, ⟨16, _⟩ => ⟨S32768x3x1, .f32⟩
  | .hbm, ⟨17, _⟩ => ⟨S_, .f32⟩
  | .hbm, ⟨18, _⟩ => ⟨S32768x3x1, .f32⟩
  | .hbm, ⟨19, _⟩ => ⟨S32768x3x1, .f32⟩
  | .hbm, ⟨20, _⟩ => ⟨S32768x3x512, .f32⟩
  | .hbm, ⟨21, _⟩ => ⟨S32768x3x512, .f32⟩
  | .hbm, ⟨22, _⟩ => ⟨S32768x3x512, .f32⟩
  | .hbm, ⟨23, _⟩ => ⟨S_, .f32⟩
  | .hbm, ⟨24, _⟩ => ⟨S32768x3, .f32⟩
  | .hbm, ⟨25, _⟩ => ⟨S32768x3x1, .f32⟩
  | .hbm, ⟨26, _⟩ => ⟨S_, .f32⟩
  | .hbm, ⟨27, _⟩ => ⟨S32768x3x1, .f32⟩
  | .hbm, ⟨28, _⟩ => ⟨S32768x3x1, .f32⟩
  | .hbm, ⟨29, _⟩ => ⟨S32768x3x512, .f32⟩
  | .hbm, ⟨30, _⟩ => ⟨S32768x3x512, .f32⟩
  | .hbm, ⟨31, _⟩ => ⟨S_, .f32⟩
  | .hbm, ⟨32, _⟩ => ⟨S32768x3x1, .f32⟩
  | .hbm, ⟨33, _⟩ => ⟨S32768x3x1, .f32⟩
  | .hbm, ⟨34, _⟩ => ⟨S32768x3x1, .f32⟩
  | .hbm, ⟨35, _⟩ => ⟨S32768x3x512, .f32⟩
  | .hbm, ⟨36, _⟩ => ⟨S32768x3x512, .f32⟩
  | .hbm, ⟨37, _⟩ => ⟨S1x3x512, .f32⟩
  | .hbm, ⟨38, _⟩ => ⟨S32768x3x512, .f32⟩
  | .hbm, ⟨39, _⟩ => ⟨S32768x3x512, .f32⟩
  | .hbm, ⟨40, _⟩ => ⟨S1x3x512, .f32⟩
  | .hbm, ⟨41, _⟩ => ⟨S32768x3x512, .f32⟩
  | .hbm, ⟨42, _⟩ => ⟨S32768x3x512, .f32⟩
  | .hbm, ⟨43, _⟩ => ⟨S32768x3x512, .f32⟩
  | .hbm, ⟨44, _⟩ => ⟨S1x3x512, .f32⟩
  | .hbm, ⟨45, _⟩ => ⟨S32768x3x512, .f32⟩
  | .hbm, ⟨46, _⟩ => ⟨S32768x3x512, .f32⟩
  | .hbm, ⟨47, _⟩ => ⟨S_, .f32⟩
  | .hbm, ⟨48, _⟩ => ⟨S32768x3, .f32⟩
  | .hbm, ⟨49, _⟩ => ⟨S32768x3x1, .f32⟩
  | .hbm, ⟨50, _⟩ => ⟨S_, .f32⟩
  | .hbm, ⟨51, _⟩ => ⟨S32768x3x1, .f32⟩
  | .hbm, ⟨52, _⟩ => ⟨S32768x3x1, .f32⟩
  | .hbm, ⟨53, _⟩ => ⟨S32768x3x512, .f32⟩
  | .hbm, ⟨54, _⟩ => ⟨S32768x3x512, .f32⟩
  | .hbm, ⟨55, _⟩ => ⟨S32768x3x512, .f32⟩
  | .hbm, ⟨56, _⟩ => ⟨S_, .f32⟩
  | .hbm, ⟨57, _⟩ => ⟨S32768x3, .f32⟩
  | .hbm, ⟨58, _⟩ => ⟨S32768x3x1, .f32⟩
  | .hbm, ⟨59, _⟩ => ⟨S_, .f32⟩
  | .hbm, ⟨60, _⟩ => ⟨S32768x3x1, .f32⟩
  | .hbm, ⟨61, _⟩ => ⟨S32768x3x1, .f32⟩
  | .hbm, ⟨62, _⟩ => ⟨S32768x3x512, .f32⟩
  | .hbm, ⟨63, _⟩ => ⟨S32768x3x512, .f32⟩
  | .hbm, ⟨64, _⟩ => ⟨S_, .f32⟩
  | .hbm, ⟨65, _⟩ => ⟨S32768x3x1, .f32⟩
  | .hbm, ⟨66, _⟩ => ⟨S32768x3x1, .f32⟩
  | .hbm, ⟨67, _⟩ => ⟨S32768x3x1, .f32⟩
  | .hbm, ⟨68, _⟩ => ⟨S32768x3x512, .f32⟩
  | .hbm, ⟨69, _⟩ => ⟨S32768x3x512, .f32⟩
  | .hbm, ⟨70, _⟩ => ⟨S1x3x512, .f32⟩
  | .hbm, ⟨71, _⟩ => ⟨S32768x3x512, .f32⟩
  | .hbm, ⟨72, _⟩ => ⟨S32768x3x512, .f32⟩
  | .hbm, ⟨73, _⟩ => ⟨S1x3x512, .f32⟩
  | .hbm, ⟨74, _⟩ => ⟨S32768x3x512, .f32⟩
  | .hbm, ⟨75, _⟩ => ⟨S32768x3x512, .f32⟩
  | .hbm, ⟨76, _⟩ => ⟨S32768x1x512, .f32⟩
  | .hbm, ⟨77, _⟩ => ⟨S32768x512, .f32⟩
  | .hbm, ⟨78, _⟩ => ⟨S32768x1x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S_, .f32⟩
  | .hbm, ⟨84, _⟩ => ⟨S32768x512, .f32⟩
  | .hbm, ⟨85, _⟩ => ⟨S32768x512, .f32⟩
  | .hbm, ⟨86, _⟩ => ⟨S_, .f32⟩
  | .hbm, ⟨87, _⟩ => ⟨S32768x512, .f32⟩
  | .hbm, ⟨88, _⟩ => ⟨S32768x512, .f32⟩
  | .hbm, ⟨89, _⟩ => ⟨S32768x1x512, .f32⟩
  | .hbm, ⟨90, _⟩ => ⟨S32768x512, .f32⟩
  | .hbm, ⟨91, _⟩ => ⟨S32768x1x512, .f32⟩
  | .hbm, ⟨92, _⟩ => ⟨S32768x512, .f32⟩
  | .hbm, ⟨93, _⟩ => ⟨S32768x512, .f32⟩
  | .hbm, ⟨94, _⟩ => ⟨S32768x512, .f32⟩
  | .hbm, ⟨95, _⟩ => ⟨S32768x512, .f32⟩
  | .hbm, ⟨96, _⟩ => ⟨S_, .f32⟩
  | .hbm, ⟨97, _⟩ => ⟨S32768x512, .f32⟩
  | .hbm, ⟨98, _⟩ => ⟨S32768x512, .f32⟩
  | .hbm, ⟨99, _⟩ => ⟨S_, .f32⟩
  | .hbm, ⟨100, _⟩ => ⟨S32768x512, .f32⟩
  | .hbm, ⟨101, _⟩ => ⟨S32768x512, .f32⟩
  | .hbm, ⟨102, _⟩ => ⟨S32768x1x512, .f32⟩
  | .hbm, ⟨103, _⟩ => ⟨S32768x512, .f32⟩
  | .hbm, ⟨104, _⟩ => ⟨S32768x1x512, .f32⟩
  | .hbm, ⟨105, _⟩ => ⟨S32768x512, .f32⟩
  | .hbm, ⟨106, _⟩ => ⟨S32768x512, .f32⟩
  | .hbm, ⟨107, _⟩ => ⟨S32768x512, .f32⟩
  | .hbm, ⟨108, _⟩ => ⟨S32768x512, .f32⟩
  | .hbm, ⟨109, _⟩ => ⟨S_, .f32⟩
  | .hbm, ⟨110, _⟩ => ⟨S32768x512, .f32⟩
  | .hbm, ⟨111, _⟩ => ⟨S32768x512, .f32⟩
  | .hbm, ⟨112, _⟩ => ⟨S32768x512, .f32⟩
  | .hbm, ⟨113, _⟩ => ⟨S32768x512, .f32⟩
  | .hbm, ⟨114, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_11 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]

class Facts₀ : Prop where
  bcast_S3x512_S1x3x512_1_2 : S3x512.BroadcastsInDim S1x3x512 (![1, 2] : Fin 2 → Fin S1x3x512.rank)
  bcast_S1x3x512_S32768x3x512_0_1_2 : S1x3x512.BroadcastsInDim S32768x3x512 (![0, 1, 2] : Fin 3 → Fin S32768x3x512.rank)
  reducesTo_S32768x3x512_S32768x3_d2 : S32768x3x512.ReducesTo [2] S32768x3
  h_S_ : 0 < S_.numel
  bcast_S32768x3_S32768x3x1_0_1 : S32768x3.BroadcastsInDim S32768x3x1 (![0, 1] : Fin 2 → Fin S32768x3x1.rank)
  bcast_S_S32768x3x1 : S_.BroadcastsInDim S32768x3x1 (![] : Fin 0 → Fin S32768x3x1.rank)
  bcast_S32768x3x1_S32768x3x512_0_1_2 : S32768x3x1.BroadcastsInDim S32768x3x512 (![0, 1, 2] : Fin 3 → Fin S32768x3x512.rank)
  slices_S32768x3x512_S32768x1x512_0_0_0 : S32768x3x512.Slices ![0, 0, 0] S32768x1x512
  shapeCasts_S32768x1x512_S32768x512 : S32768x1x512.ShapeCasts S32768x512
  bcast_S_S32768x512 : S_.BroadcastsInDim S32768x512 (![] : Fin 0 → Fin S32768x512.rank)
  slices_S32768x3x512_S32768x1x512_0_1_0 : S32768x3x512.Slices ![0, 1, 0] S32768x1x512
  slices_S32768x3x512_S32768x1x512_0_2_0 : S32768x3x512.Slices ![0, 2, 0] S32768x1x512
  dot_S32768x512_S3x512x512_S32768x3x512_1_2_0_01_n_n_wf : DotDims.WF S32768x512 S3x512x512 S32768x3x512 [1] [2] [0] [0, 1] [] []

variable [Facts₀]

def dot_S32768x512_S3x512x512_S32768x3x512_1_2_0_01_n_n : DotDims S32768x512 S3x512x512 S32768x3x512 where
  lhsContracting := [1]
  rhsContracting := [2]
  lhsNonContracting := [0]
  rhsNonContracting := [0, 1]
  lhsBatch := []
  rhsBatch := []
  wf := dot_S32768x512_S3x512x512_S32768x3x512_1_2_0_01_n_n_wf

class Facts : Prop extends Facts₀ where

variable [Facts]
-- ==== Proof.Spec.lean ====
/-
  The cell of a gated recurrent unit whose two affine maps are each followed by a layer normalisation, as ONE function
  of the ten argument arrays, entry by entry, on the extended reals.

  For a batch row `r` and a gate `g` (reset, update, candidate) the pre-activation of the input side is the row
  `e ↦ (∑ k, x (r, k) · Wi (g, e, k)) + bi (g, e)` of 512 entries, and likewise for the hidden side with `h`, `Wh`, `bh`.
  Each such row is normalised: its mean is the sum of its entries over 512, its variance the mean of the squared
  deviations, and the normalised entry is `(y e − mean) · rsqrt (var + ε) · γ (g, e) + β (g, e)`. With `ai g`, `ah g` the
  normalised rows at entry `e`, the cell is

      rr = logistic (ai 0 + ah 0),  z = logistic (ai 1 + ah 1),  n = tanh (ai 2 + rr · ah 2),
      out (r, e) = (1 − z) · n + z · h (r, e).

  The float literals stay the words the programs print (512, ε = f32 1e-5, 1): the same word denotes the same extended
  real on both sides, so none is ever evaluated.
-/
import Idealize.ShloMosaic.PureOps.Ideal
import Idealize.ShloMosaic.Lib.ValueIdx

noncomputable section

open scoped BigOperators

namespace Cert.Gru

open Idealize.ShloMosaic Idealize.ShloMosaic.ValueIdx

/-- The word of 512.0, the length of a normalised row. -/
abbrev w512 : EReal := Ideal.ofBits .f32 0x44000000#32
/-- The word of the normalisation's ε (f32 1e-5). -/
abbrev wEps : EReal := Ideal.ofBits .f32 0x3727C5AC#32
/-- The word of 1.0. -/
abbrev wOne : EReal := Ideal.ofBits .f32 0x3F800000#32

/-- The mean of a row of 512 entries. -/
def rowMean (y : Fin 512 → EReal) : EReal := Ideal.div (∑ k : Fin 512, y k) w512

/-- The variance of a row: the mean of its squared deviations from the mean. -/
def rowVar (y : Fin 512 → EReal) : EReal :=
  Ideal.div (∑ k : Fin 512, (y k - rowMean y) * (y k - rowMean y)) w512

/-- The normalised entry `e` of a row, with gain `γ` and bias `β` of that entry. -/
def layerNorm (y : Fin 512 → EReal) (γ β : EReal) (e : Fin 512) : EReal :=
  (y e - rowMean y) * Ideal.rsqrt (rowVar y + wEps) * γ + β

/-- The pre-activation row of batch row `r` and gate `g`: `x W_gᵀ + b_g`. -/
def pre (x : FVec Ideal ⟨2, ![32768, 512]⟩ .f32) (W : FVec Ideal ⟨3, ![3, 512, 512]⟩ .f32) (b : FVec Ideal ⟨2, ![3, 512]⟩ .f32)
    (r : Fin 32768) (g : Fin 3) (e : Fin 512) : EReal :=
  (∑ k : Fin 512, x (ix2 r k) * W (ix3 g e k)) + b (ix2 g e)

/-- The normalised pre-activation of batch row `r`, gate `g`, at entry `e`. -/
def gate (x : FVec Ideal ⟨2, ![32768, 512]⟩ .f32) (W : FVec Ideal ⟨3, ![3, 512, 512]⟩ .f32) (b γ β : FVec Ideal ⟨2, ![3, 512]⟩ .f32)
    (r : Fin 32768) (g : Fin 3) (e : Fin 512) : EReal :=
  layerNorm (pre x W b r g) (γ (ix2 g e)) (β (ix2 g e)) e

/-- How the six normalised values of one entry and the old state combine. -/
def combine (ai0 ai1 ai2 ah0 ah1 ah2 hOld : EReal) : EReal :=
  (wOne - Ideal.logistic (ai1 + ah1)) * Ideal.tanh (ai2 + Ideal.logistic (ai0 + ah0) * ah2)
    + Ideal.logistic (ai1 + ah1) * hOld

/-- The new state at batch row `r`, entry `e`. -/
def cell (x h : FVec Ideal ⟨2, ![32768, 512]⟩ .f32) (Wi : FVec Ideal ⟨3, ![3, 512, 512]⟩ .f32) (bi : FVec Ideal ⟨2, ![3, 512]⟩ .f32)
    (Wh : FVec Ideal ⟨3, ![3, 512, 512]⟩ .f32) (bh gi βi gh βh : FVec Ideal ⟨2, ![3, 512]⟩ .f32)
    (r : Fin 32768) (e : Fin 512) : EReal :=
  combine (gate x Wi bi gi βi r 0 e) (gate x Wi bi gi βi r 1 e) (gate x Wi bi gi βi r 2 e)
    (gate h Wh bh gh βh r 0 e) (gate h Wh bh gh βh r 1 e) (gate h Wh bh gh βh r 2 e) (h (ix2 r e))

/-- The whole result array, the arguments in the programs' order. -/
def G (x h : FVec Ideal ⟨2, ![32768, 512]⟩ .f32) (Wi : FVec Ideal ⟨3, ![3, 512, 512]⟩ .f32) (bi : FVec Ideal ⟨2, ![3, 512]⟩ .f32)
    (Wh : FVec Ideal ⟨3, ![3, 512, 512]⟩ .f32) (bh gi βi gh βh : FVec Ideal ⟨2, ![3, 512]⟩ .f32) :
    FVec Ideal ⟨2, ![32768, 512]⟩ .f32 :=
  fun i => cell x h Wi bi Wh bh gi βi gh βh (i 0) (i 1)

end Cert.Gru

end
-- ==== Proof.LibKeepdims.lean ====
/-
  A row reduction kept as a column, read at an index by coordinates.

  `jnp.sum(x, axis=1, keepdims=True)` of an `[a, b]` array is three steps on the vector unit: a lane sum into `[a]`, a
  reshape of that vector to the column `[a, 1]`, and (where the column meets an `[a, b]` operand) its broadcast along
  the second axis. Read at `(p, c)` the three steps together are `∑ k, x (p, k)`, whatever `c`:
  `shapeCast_a_a1_apply` (the column at `(i, u)` is the vector at `i`), `broadcastTo_a1_ab_apply` (the broadcast at
  `(p, c)` is the column at `(p, 0)`) and `rowSum_f32` (an f32 lane sum over the second axis of a matrix, from the zero
  word, is the sum over `k` of the row's entries on the extended reals).
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- An `[a]` vector reshaped to the column `[a, 1]` reads, at `(i, u)`, the vector at `i`: both sit at row-major
    position `i`, the unit coordinate contributing nothing. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the second axis of an `[a, b]` matrix, started from the zero word (the sum's neutral element),
    is at row `r` the sum of that row's entries on the extended reals: the reduced index with the coordinate `k` put back
    on axis 1 is `(r, k)`. -/
theorem rowSum_f32 {a b : ℕ} (v : FVec Ideal ⟨2, ![a, b]⟩ .f32) (h : (⟨2, ![a, b]⟩ : Shape).Reduces [1] ⟨1, ![a]⟩) (r : Fin a) :
    multiReduction .add [1] ⟨1, ![a]⟩ v 0x00000000#32 h (.inl rfl) rfl (ix1 r) = ∑ k : Fin b, v (ix2 r k) := by
  refine (Ideal.multiReduction_add_single v 0x00000000#32 h (.inl rfl) rfl (ix1 r)).trans ?_
  refine Finset.sum_congr rfl fun k _ => congrArg v (funext fun c => Fin.ext ?_)
  match c with
  | ⟨0, _⟩ => rfl
  | ⟨1, _⟩ => rfl

end Cert.Lib.Keepdims

end
-- ==== Proof.KernelLN.lean ====
/-
  The kernel's arithmetic on one block of 512 batch rows, as a few whole-vector functions, and each of them read at an
  entry `(p, q)` of the block on the extended reals.

  The body normalises six slices of 512 columns (three gates of the input-side product, three of the hidden-side
  product). Every one of them is the same composition: the row mean kept as a column (`meanCol`: a lane sum, a reshape
  to a column, a division by 512), the deviations from a column of means (`ctrWith`), the mean of the squared deviations,
  and the closing step `deviation · rsqrt (var + ε) · γ + β` with the gain and bias rows broadcast down the block
  (`lnFinish`). `lnVec` is the whole normalisation of a `[512, 512]` slice; `combineVec` is the gated update
  `(1 − z) · n + z · h`. Read at `(p, q)` they are `Cert.Gru.rowMean`, `Cert.Gru.layerNorm` and `Cert.Gru.combine`
  of the entries of row `p`.
-/
import proofs.«181213_j34548716929790_2_alg».proof.Proof.Gen.KernelIdeal.Skeleton
import proofs.«181213_j34548716929790_2_alg».proof.Proof.Spec
import proofs.«181213_j34548716929790_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gru.Kern

open Idealize.ShloMosaic Idealize.ShloMosaic.ValueIdx Cert.KernelIdeal Cert.KernelIdeal.Gen Cert.Lib.Keepdims

/-! ## The whole-vector functions, at any instance -/

section Defs
variable {F : FTy → Type} [FloatOps F]

/-- The mean of each row of a `[512, 512]` block, kept as a column. -/
def meanCol (y : FVec F S512x512 .f32) : FVec F S512x1 .f32 :=
  divf (shapeCast S512x1 (multiReduction .add [1] S512 y 0x00000000#32 reduces_S512x512_S512 (.inl rfl) rfl) shapeCasts_S512_S512x1)
    (broadcast S512x1 (Scalar.ofBits .f32 0x44000000#32))

/-- The deviations of a block's entries from a column `μ`. -/
def ctrWith (y : FVec F S512x512 .f32) (μ : FVec F S512x1 .f32) : FVec F S512x512 .f32 :=
  subf y (broadcastTo S512x512 μ broadcasts_S512x1_S512x512)

/-- The closing step of a normalisation: `ctr · rsqrt (var + ε) · γ + β`, the column and the two rows broadcast. -/
def lnFinish (γ β : FVec F S1x512 .f32) (var : FVec F S512x1 .f32) (ctr : FVec F S512x512 .f32) (ε : F .f32) :
    FVec F S512x512 .f32 :=
  addf (mulf (mulf ctr (broadcastTo S512x512 (rsqrt (addf var (broadcast S512x1 ε))) broadcasts_S512x1_S512x512))
    (broadcastTo S512x512 γ broadcasts_S1x512_S512x512)) (broadcastTo S512x512 β broadcasts_S1x512_S512x512)

/-- The normalisation of a block whose column of means `μ` is given. -/
def lnWith (y : FVec F S512x512 .f32) (μ : FVec F S512x1 .f32) (γ β : FVec F S1x512 .f32) : FVec F S512x512 .f32 :=
  lnFinish γ β (meanCol (mulf (ctrWith y μ) (ctrWith y μ))) (ctrWith y μ) (Scalar.ofBits .f32 0x3727C5AC#32)

/-- The layer normalisation of a `[512, 512]` block along its rows. -/
def lnVec (y : FVec F S512x512 .f32) (γ β : FVec F S1x512 .f32) : FVec F S512x512 .f32 :=
  lnWith y (meanCol y) γ β

/-- The gated update from the six normalised blocks and the old state's block. -/
def combineVec (aiR aiZ aiN ahR ahZ ahN hOld : FVec F S512x512 .f32) : FVec F S512x512 .f32 :=
  addf (mulf (subf (broadcast S512x512 (Scalar.ofBits .f32 0x3F800000#32)) (logistic (addf aiZ ahZ)))
      (tanh (addf aiN (mulf (logistic (addf aiR ahR)) ahN))))
    (mulf (logistic (addf aiZ ahZ)) hOld)

end Defs

/-! ## Read at an entry, on the extended reals -/

/-- The column of means at row `p` is the mean of row `p`. -/
theorem meanCol_apply (y : FVec Ideal S512x512 .f32) (p : Fin 512) (u : Fin 1) :
    meanCol y (ix2 p u) = Cert.Gru.rowMean (fun k => y (ix2 p k)) := by
  unfold meanCol Cert.Gru.rowMean
  rw [divf_apply, shapeCast_a_a1_apply, rowSum_f32]
  rfl

/-- A deviation at `(p, q)`: the entry less the column's entry of row `p`. -/
theorem ctrWith_apply (y : FVec Ideal S512x512 .f32) (μ : FVec Ideal S512x1 .f32) (p q : Fin 512) :
    ctrWith y μ (ix2 p q) = y (ix2 p q) - μ (ix2 p (0 : Fin 1)) := by
  unfold ctrWith
  rw [subf_apply, broadcastTo_a1_ab_apply]

/-- The closing step at `(p, q)`. -/
theorem lnFinish_apply (γ β : FVec Ideal S1x512 .f32) (var : FVec Ideal S512x1 .f32) (ctr : FVec Ideal S512x512 .f32)
    (ε : Ideal .f32) (p q : Fin 512) :
    lnFinish γ β var ctr ε (ix2 p q)
      = ctr (ix2 p q) * Ideal.rsqrt (var (ix2 p (0 : Fin 1)) + ε) * γ (ix2 (0 : Fin 1) q) + β (ix2 (0 : Fin 1) q) := by
  unfold lnFinish
  rw [addf_apply, mulf_apply, mulf_apply, broadcastTo_a1_ab_apply, broadcastTo_1b_ab_apply, broadcastTo_1b_ab_apply]
  rfl

/-- The normalised block at `(p, q)` is the normalised entry `q` of row `p`. -/
theorem lnVec_apply (y : FVec Ideal S512x512 .f32) (γ β : FVec Ideal S1x512 .f32) (p q : Fin 512) :
    lnVec y γ β (ix2 p q)
      = Cert.Gru.layerNorm (fun k => y (ix2 p k)) (γ (ix2 (0 : Fin 1) q)) (β (ix2 (0 : Fin 1) q)) q := by
  unfold lnVec lnWith
  rw [lnFinish_apply, ctrWith_apply, meanCol_apply, meanCol_apply]
  unfold Cert.Gru.layerNorm Cert.Gru.rowVar
  have hs : (fun k : Fin 512 => mulf (ctrWith y (meanCol y)) (ctrWith y (meanCol y)) (ix2 p k))
      = fun k : Fin 512 => (y (ix2 p k) - Cert.Gru.rowMean (fun j => y (ix2 p j))) * (y (ix2 p k) - Cert.Gru.rowMean (fun j => y (ix2 p j))) :=
    funext fun k => by rw [mulf_apply, ctrWith_apply, meanCol_apply]
  rw [hs]
  rfl

/-- The gated update at an entry. -/
theorem combineVec_apply (aiR aiZ aiN ahR ahZ ahN hOld : FVec Ideal S512x512 .f32) (i : S512x512.Idx) :
    combineVec aiR aiZ aiN ahR ahZ ahN hOld i
      = Cert.Gru.combine (aiR i) (aiZ i) (aiN i) (ahR i) (ahZ i) (ahN i) (hOld i) := rfl

end Cert.Gru.Kern

end
-- ==== Proof.LibPlainMatmul.lean ====
/-
  A plain matrix product read at a row and a column.

  For a product of an `[M, K]` matrix by a `[K, N]` matrix that contracts the first operand's second axis with the second
  operand's first axis and has no batch axis, accumulated into the zero matrix, the entry at `(i, o)` is, on the extended
  reals, the sum over `k` of the first operand at `(i, k)` times the second at `(k, o)`.  The lemma takes the four
  coordinate facts of the dimension record (which operand coordinate reads the result index, which the contraction index) as
  hypotheses, so that it serves any record with this layout, whatever its extents.
-/
import Idealize.ShloMosaic.PureOps.Ideal.Laws
import Idealize.ShloMosaic.Lib.ValueIdx

noncomputable section

open scoped BigOperators

namespace Cert.Lib.PlainMatmul

open Idealize.ShloMosaic Idealize.ShloMosaic.ValueIdx

/-- The entry `(i, o)` of `lhs · rhs` accumulated into zero is `∑ k, lhs (i, k) * rhs (k, o)`. -/
theorem matmul_zero_apply {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ (j : (⟨2, ![M, N]⟩ : Shape).Idx) (q : d.contr.Idx), (d.lhsIdx j q ⟨0, Nat.zero_lt_two⟩).val = (j ⟨0, Nat.zero_lt_two⟩).val)
    (l1 : ∀ (j : (⟨2, ![M, N]⟩ : Shape).Idx) (q : d.contr.Idx), (d.lhsIdx j q ⟨1, Nat.one_lt_two⟩).val = (q ⟨0, by omega⟩).val)
    (r0 : ∀ (j : (⟨2, ![M, N]⟩ : Shape).Idx) (q : d.contr.Idx), (d.rhsIdx j q ⟨0, Nat.zero_lt_two⟩).val = (q ⟨0, by omega⟩).val)
    (r1 : ∀ (j : (⟨2, ![M, N]⟩ : Shape).Idx) (q : d.contr.Idx), (d.rhsIdx j q ⟨1, Nat.one_lt_two⟩).val = (j ⟨1, Nat.one_lt_two⟩).val)
    (prec : Option ContractPrecision) (lhs : FVec Ideal ⟨2, ![M, K]⟩ φ₁) (rhs : FVec Ideal ⟨2, ![K, N]⟩ φ₂)
    (i : Fin M) (o : Fin N) :
    matmul d prec lhs rhs (constant ⟨2, ![M, N]⟩ .f32 0x00000000#32) (ix2 i o)
      = ∑ k : Fin K, lhs (ix2 i k) * rhs (ix2 k o) := by
  refine (Ideal.matmul_constant_zero_apply d prec lhs rhs (ix2 i o)).trans ?_
  rw [← Equiv.sum_comp (contrEquiv1 d K hr hs).symm]
  refine Finset.sum_congr rfl fun k _ => ?_
  have hk := contrEquiv1_symm_val d K hr hs k
  have el : d.lhsIdx (ix2 i o) ((contrEquiv1 d K hr hs).symm k) = ix2 i k := funext fun a => Fin.ext (by
    match a with
    | ⟨0, _⟩ => exact l0 _ _
    | ⟨1, _⟩ => exact (l1 _ _).trans hk)
  have er : d.rhsIdx (ix2 i o) ((contrEquiv1 d K hr hs).symm k) = ix2 k o := funext fun a => Fin.ext (by
    match a with
    | ⟨0, _⟩ => exact (r0 _ _).trans hk
    | ⟨1, _⟩ => exact r1 _ _)
  rw [el, er]

end Cert.Lib.PlainMatmul

end
-- ==== Proof.KernelPay.lean ====
/-
  What the kernel's body leaves in its output block, read at an entry `(p, q)` of the block on the extended reals.

  The body forms two pre-activation blocks of 1536 columns, `x_blk · Wi_mat + bi_row` and `h_blk · Wh_mat + bh_row`
  (`k0_pay2`, `k0_pay3`: a matrix product into a zero accumulator plus a row broadcast down the block), cuts each into
  three slices of 512 columns (the gates), normalises every slice along its rows with the gain and bias rows loaded at
  the same column offset (`gateVec`), and combines the six normalised blocks with the old state's block
  (`Kern.combineVec`). `out_eq` says the generated term of the output block IS that composition; `out_apply` reads it
  at `(p, q)`: the combination of six `gateB` values, where `gateB` is the normalised entry `q` of the row
  `k ↦ (∑ j, x (p, j) · W (j, o + k)) + b (0, o + k)` with the gain and bias at column `o + q`.
-/
import proofs.«181213_j34548716929790_2_alg».proof.Proof.Gen.KernelIdeal.Frame
import proofs.«181213_j34548716929790_2_alg».proof.Proof.KernelLN
import proofs.«181213_j34548716929790_2_alg».proof.Proof.LibPlainMatmul

noncomputable section

open scoped BigOperators

namespace Cert.Gru.Kern

open Idealize.ShloMosaic Idealize.ShloMosaic.ValueIdx Cert.KernelIdeal Cert.KernelIdeal.Gen Cert.Lib.Keepdims

/-! ## The output block as a composition of whole-vector functions -/

section Defs
variable {F : FTy → Type} [FloatOps F]

/-- One gate's normalised block: the 512 columns from column `o` of a pre-activation block, normalised along the rows
    with the gain row `γ` and the bias row `β`. -/
def gateVec (o : ℕ) (hs : S512x1536.Slices ![0, o] S512x512) (Y : FVec F S512x1536 .f32) (γ β : FVec F S1x512 .f32) :
    FVec F S512x512 .f32 :=
  lnVec (extractStridedSlice S512x512 ![0, o] Y hs) (shapeCast S1x512 γ shapeCasts_S1x512_S1x512)
    (shapeCast S1x512 β shapeCasts_S1x512_S1x512)

/-- The generated term of the output block is the gated update of the six normalised gate blocks. -/
theorem out_eq (x0 x1 : Vec F S512x512 .f32) (x2 x3 : Vec F S512x1536 .bf16) (x4 x5 x6 x7 x8 x9 : Vec F S1x1536 .f32) :
    out0_10 x0 x1 x2 x3 x4 x5 x6 x7 x8 x9 = View.canon [⟨r0_0, combineVec
      (gateVec 0 slices_S512x1536_o0_0_S512x512 (k0_pay2 (View.ld x0 r0_0) (View.ld x2 r0_1) (View.ld x4 r0_2)) (View.ld x6 r0_3) (View.ld x7 r0_3))
      (gateVec 512 slices_S512x1536_o0_512_S512x512 (k0_pay2 (View.ld x0 r0_0) (View.ld x2 r0_1) (View.ld x4 r0_2)) (View.ld x6 r0_4) (View.ld x7 r0_4))
      (gateVec 1024 slices_S512x1536_o0_1024_S512x512 (k0_pay2 (View.ld x0 r0_0) (View.ld x2 r0_1) (View.ld x4 r0_2)) (View.ld x6 r0_5) (View.ld x7 r0_5))
      (gateVec 0 slices_S512x1536_o0_0_S512x512 (k0_pay3 (View.ld x1 r0_0) (View.ld x3 r0_1) (View.ld x5 r0_2)) (View.ld x8 r0_3) (View.ld x9 r0_3))
      (gateVec 512 slices_S512x1536_o0_512_S512x512 (k0_pay3 (View.ld x1 r0_0) (View.ld x3 r0_1) (View.ld x5 r0_2)) (View.ld x8 r0_4) (View.ld x9 r0_4))
      (gateVec 1024 slices_S512x1536_o0_1024_S512x512 (k0_pay3 (View.ld x1 r0_0) (View.ld x3 r0_1) (View.ld x5 r0_2)) (View.ld x8 r0_5) (View.ld x9 r0_5))
      (View.ld x1 r0_0)⟩] := rfl

/-- The hidden-side pre-activation block is the same function as the input side's. -/
theorem pay3_eq (x : Vec F S512x512 .f32) (W : Vec F S512x1536 .bf16) (b : Vec F S1x1536 .f32) : k0_pay3 x W b = k0_pay2 x W b := rfl

end Defs

/-! ## Read at an entry, on the extended reals -/

/-- The coordinate facts of the product's dimension record: which operand coordinate reads the result's row and
    column, and which the contracted position. -/
theorem dot_l0 (j : S512x1536.Idx) (q : dot_S512x512_S512x1536_S512x1536_1_0_0_1_n_n.contr.Idx) :
    (dot_S512x512_S512x1536_S512x1536_1_0_0_1_n_n.lhsIdx j q ⟨0, Nat.zero_lt_two⟩).val = (j ⟨0, Nat.zero_lt_two⟩).val := by
  unfold DotDims.lhsIdx
  rw [dif_neg (show ¬(⟨0, Nat.zero_lt_two⟩ : Fin S512x512.rank) ∈ dot_S512x512_S512x1536_S512x1536_1_0_0_1_n_n.lhsBatch by decide),
    dif_pos (show (⟨0, Nat.zero_lt_two⟩ : Fin S512x512.rank) ∈ dot_S512x512_S512x1536_S512x1536_1_0_0_1_n_n.lhsNonContracting by decide)]
  rfl
theorem dot_l1 (j : S512x1536.Idx) (q : dot_S512x512_S512x1536_S512x1536_1_0_0_1_n_n.contr.Idx) :
    (dot_S512x512_S512x1536_S512x1536_1_0_0_1_n_n.lhsIdx j q ⟨1, Nat.one_lt_two⟩).val = (q ⟨0, by decide⟩).val :=
  dot_S512x512_S512x1536_S512x1536_1_0_0_1_n_n.lhsIdx_val_of_single rfl j q
theorem dot_r0 (j : S512x1536.Idx) (q : dot_S512x512_S512x1536_S512x1536_1_0_0_1_n_n.contr.Idx) :
    (dot_S512x512_S512x1536_S512x1536_1_0_0_1_n_n.rhsIdx j q ⟨0, Nat.zero_lt_two⟩).val = (q ⟨0, by decide⟩).val :=
  dot_S512x512_S512x1536_S512x1536_1_0_0_1_n_n.rhsIdx_val_of_single rfl j q
theorem dot_r1 (j : S512x1536.Idx) (q : dot_S512x512_S512x1536_S512x1536_1_0_0_1_n_n.contr.Idx) :
    (dot_S512x512_S512x1536_S512x1536_1_0_0_1_n_n.rhsIdx j q ⟨1, Nat.one_lt_two⟩).val = (j ⟨1, Nat.one_lt_two⟩).val := by
  unfold DotDims.rhsIdx
  rw [dif_neg (show ¬(⟨1, Nat.one_lt_two⟩ : Fin S512x1536.rank) ∈ dot_S512x512_S512x1536_S512x1536_1_0_0_1_n_n.rhsBatch by decide),
    dif_pos (show (⟨1, Nat.one_lt_two⟩ : Fin S512x1536.rank) ∈ dot_S512x512_S512x1536_S512x1536_1_0_0_1_n_n.rhsNonContracting by decide)]
  rfl

/-- The pre-activation block at row `p`, column `c`: the product's entry plus the bias row's entry of that column
    (the rounding of the product's operands to bf16 is the identity on the extended reals). -/
theorem pay2_apply (x : FVec Ideal S512x512 .f32) (W : FVec Ideal S512x1536 .bf16) (b : FVec Ideal S1x1536 .f32)
    (p : Fin 512) (c : Fin 1536) :
    k0_pay2 x W b (ix2 p c) = (∑ k : Fin 512, x (ix2 p k) * W (ix2 k c)) + b (ix2 (0 : Fin 1) c) := by
  unfold k0_pay2
  rw [addf_apply, shapeCast_self, shapeCast_self, broadcastTo_1b_ab_apply]
  refine congrArg (· + b (ix2 (0 : Fin 1) c)) ?_
  exact Cert.Lib.PlainMatmul.matmul_zero_apply dot_S512x512_S512x1536_S512x1536_1_0_0_1_n_n rfl rfl dot_l0 dot_l1 dot_r0 dot_r1 none
    (truncf .bf16 x bitsLt_bf16_f32) W p c

/-- A row of 512 entries loaded from column `o` of a `[1, 1536]` row reads, at `q`, the row at column `o + q`. -/
theorem ld_row (X : FVec Ideal S1x1536 .f32) (o : ℕ) (inb : ∀ a, (![0, o] : Fin 2 → ℕ) a + S1x512.size a ≤ S1x1536.size a)
    (ho : o + 512 ≤ 1536) (q : Fin 512) :
    View.ld (Val := Elt Ideal) (e' := EltTy.f32) X (Rect.unit (s := S1x1536) ![0, o] S1x512.size inb) (ix2 (0 : Fin 1) q)
      = X (ix2 (0 : Fin 1) (⟨o + q.val, by have := q.isLt; omega⟩ : Fin 1536)) := by
  show X ((Rect.unit (s := S1x1536) ![0, o] S1x512.size inb).idx (ix2 (0 : Fin 1) q)) = _
  refine congrArg X (funext fun a => Fin.ext ?_)
  match a with
  | ⟨0, _⟩ => show 0 + 1 * 0 = 0; rfl
  | ⟨1, _⟩ => show o + 1 * q.val = o + q.val; omega

/-- The pre-activation row of block row `p` for the gate whose columns start at `o`. -/
def preB (x : FVec Ideal S512x512 .f32) (W : FVec Ideal S512x1536 .bf16) (b : FVec Ideal S1x1536 .f32) (o : ℕ) (ho : o + 512 ≤ 1536)
    (p k : Fin 512) : EReal :=
  (∑ j : Fin 512, x (ix2 p j) * W (ix2 j (⟨o + k.val, by have := k.isLt; omega⟩ : Fin 1536)))
    + b (ix2 (0 : Fin 1) (⟨o + k.val, by have := k.isLt; omega⟩ : Fin 1536))

/-- The normalised entry `q` of that row, the gain and the bias read at column `o + q` of their rows. -/
def gateB (x : FVec Ideal S512x512 .f32) (W : FVec Ideal S512x1536 .bf16) (b γ β : FVec Ideal S1x1536 .f32) (o : ℕ) (ho : o + 512 ≤ 1536)
    (p q : Fin 512) : EReal :=
  Cert.Gru.layerNorm (preB x W b o ho p) (γ (ix2 (0 : Fin 1) (⟨o + q.val, by have := q.isLt; omega⟩ : Fin 1536)))
    (β (ix2 (0 : Fin 1) (⟨o + q.val, by have := q.isLt; omega⟩ : Fin 1536))) q

/-- One gate's normalised block at `(p, q)`. -/
theorem gateVec_apply (o : ℕ) (hs : S512x1536.Slices ![0, o] S512x512) (ho : o + 512 ≤ 1536)
    (inb : ∀ a, (![0, o] : Fin 2 → ℕ) a + S1x512.size a ≤ S1x1536.size a)
    (x : FVec Ideal S512x512 .f32) (W : FVec Ideal S512x1536 .bf16) (b γ β : FVec Ideal S1x1536 .f32) (p q : Fin 512) :
    gateVec (F := Ideal) o hs (k0_pay2 x W b) (View.ld (Val := Elt Ideal) (e' := EltTy.f32) γ (Rect.unit (s := S1x1536) ![0, o] S1x512.size inb))
        (View.ld (Val := Elt Ideal) (e' := EltTy.f32) β (Rect.unit (s := S1x1536) ![0, o] S1x512.size inb)) (ix2 p q)
      = gateB x W b γ β o ho p q := by
  unfold gateVec gateB
  rw [lnVec_apply, shapeCast_self, shapeCast_self, ld_row γ o inb ho q, ld_row β o inb ho q]
  refine congrArg (fun y => Cert.Gru.layerNorm y _ _ q) (funext fun k => ?_)
  rw [slice2_axis1_eq, pay2_apply]
  rfl

theorem hz : (![0, 0] : Fin 2 → Nat) = fun _ => 0 := funext fun a => by fin_cases a <;> rfl

/-- The output block at `(p, q)`: the gated update of the six gates' normalised entries and the old state's entry. -/
theorem out_apply (x0 x1 : FVec Ideal S512x512 .f32) (x2 x3 : FVec Ideal S512x1536 .bf16) (x4 x5 x6 x7 x8 x9 : FVec Ideal S1x1536 .f32)
    (p q : Fin 512) :
    out0_10 (F := Ideal) x0 x1 x2 x3 x4 x5 x6 x7 x8 x9 (ix2 p q)
      = Cert.Gru.combine (gateB x0 x2 x4 x6 x7 0 (by decide) p q) (gateB x0 x2 x4 x6 x7 512 (by decide) p q)
          (gateB x0 x2 x4 x6 x7 1024 (by decide) p q) (gateB x1 x3 x5 x8 x9 0 (by decide) p q)
          (gateB x1 x3 x5 x8 x9 512 (by decide) p q) (gateB x1 x3 x5 x8 x9 1024 (by decide) p q) (x1 (ix2 p q)) := by
  rw [out_eq, View.canon_unit_zero hz, combineVec_apply]
  simp only [View.ld_unit_zero (S := S512x512) hz, View.ld_unit_zero (S := S512x1536) hz, View.ld_unit_zero (S := S1x1536) hz, pay3_eq]
  rw [gateVec_apply 0 slices_S512x1536_o0_0_S512x512 (by decide) inb_S1x1536_S1x512_0_0 x0 x2 x4 x6 x7 p q,
    gateVec_apply 512 slices_S512x1536_o0_512_S512x512 (by decide) inb_S1x1536_S1x512_0_512 x0 x2 x4 x6 x7 p q,
    gateVec_apply 1024 slices_S512x1536_o0_1024_S512x512 (by decide) inb_S1x1536_S1x512_0_1024 x0 x2 x4 x6 x7 p q,
    gateVec_apply 0 slices_S512x1536_o0_0_S512x512 (by decide) inb_S1x1536_S1x512_0_0 x1 x3 x5 x8 x9 p q,
    gateVec_apply 512 slices_S512x1536_o0_512_S512x512 (by decide) inb_S1x1536_S1x512_0_512 x1 x3 x5 x8 x9 p q,
    gateVec_apply 1024 slices_S512x1536_o0_1024_S512x512 (by decide) inb_S1x1536_S1x512_0_1024 x1 x3 x5 x8 x9 p q]
  exact congrArg (Cert.Gru.combine _ _ _ _ _ _) (congrFun (View.ld_unit_zero (Val := Elt Ideal) (S := S512x512) (e := EltTy.f32) hz inb_S512x512_S512x512_0_0 x1) (ix2 p q))

end Cert.Gru.Kern

end
-- ==== Proof.Layout.lean ====
/-
  The two re-layings of the parameters that happen before the kernel runs, read at an entry.

  A stack `W` of three `[512, 512]` weight matrices (gate, output entry, input entry) is transposed to
  (input entry, gate, output entry) and flattened to a `[512, 1536]` matrix: its entry at row `j`, column `g·512 + k`
  is `W (g, k, j)` (`flatWeights_apply`). A `[3, 512]` table (gate, entry) is flattened to one row of 1536 entries: its
  entry at column `g·512 + k` is the table's `(g, k)` (`flatRow_apply`). The column is written `o + k` with `o = g·512`
  given as a hypothesis, so that the lemmas apply at the literal offsets 0, 512 and 1024.
-/
import Idealize.ShloMosaic.Lib.Pipeline.Value
import Idealize.ShloMosaic.Lib.ValueIdx

noncomputable section

namespace Cert.Gru.Layout

open Idealize.ShloMosaic Idealize.ShloMosaic.ValueIdx

variable {α : Type}

/-- The flattened transposed weight stack at row `j`, column `o + k` (`o = g·512`) is the stack at `(g, k, j)`. -/
theorem flatWeights_apply (W : (⟨3, ![3, 512, 512]⟩ : Shape).Idx → α)
    (ht : (⟨3, ![3, 512, 512]⟩ : Shape).Transposes [2, 0, 1] ⟨3, ![512, 3, 512]⟩)
    (hc : (⟨3, ![512, 3, 512]⟩ : Shape).ShapeCasts ⟨2, ![512, 1536]⟩)
    (g : Fin 3) (o : ℕ) (ho : o = g.val * 512) (j k : Fin 512) (hlt : o + k.val < 1536) :
    shapeCast ⟨2, ![512, 1536]⟩ (transpose ⟨3, ![512, 3, 512]⟩ [2, 0, 1] W ht) hc (ix2 j (⟨o + k.val, hlt⟩ : Fin 1536))
      = W (ix3 g k j) := by
  rw [shapeCast_apply (transpose ⟨3, ![512, 3, 512]⟩ [2, 0, 1] W ht) hc (ix2 j (⟨o + k.val, hlt⟩ : Fin 1536)) (ix3 j g k) (by
    rw [Shape.rowMajor_val_three, Shape.rowMajor_val_two]
    show (j.val * 3 + g.val) * 512 + k.val = j.val * 1536 + (o + k.val)
    omega)]
  refine transpose_apply [2, 0, 1] W ht (ix3 j g k) (ix3 g k j) fun b => ?_
  match b with
  | ⟨0, _⟩ => rfl
  | ⟨1, _⟩ => rfl
  | ⟨2, _⟩ => rfl

/-- The flattened `[3, 512]` table at column `o + k` (`o = g·512`) is the table at `(g, k)`. -/
theorem flatRow_apply (B : (⟨2, ![3, 512]⟩ : Shape).Idx → α) (hc : (⟨2, ![3, 512]⟩ : Shape).ShapeCasts ⟨2, ![1, 1536]⟩)
    (g : Fin 3) (o : ℕ) (ho : o = g.val * 512) (k : Fin 512) (hlt : o + k.val < 1536) :
    shapeCast ⟨2, ![1, 1536]⟩ B hc (ix2 (0 : Fin 1) (⟨o + k.val, hlt⟩ : Fin 1536)) = B (ix2 g k) :=
  shapeCast_apply B hc _ _ (by
    rw [Shape.rowMajor_val_two, Shape.rowMajor_val_two]
    show g.val * 512 + k.val = 0 * 1536 + (o + k.val)
    omega)

end Cert.Gru.Layout

end
-- ==== Proof.KernelBlocks.lean ====
/-
  From blocks to the array: what each grid point writes back is one block of rows of the specified cell.

  The grid has 64 points. Point `t` is given rows `512 t … 512 t + 511` of `x` and of `h` and, whole, the eight
  parameter arrays as they are re-laid before the kernel runs: the two weight stacks transposed and flattened to
  `[512, 1536]` (entry `(j, 512 g + k)` is the stack's `(g, k, j)`), the six `[3, 512]` tables flattened to rows of 1536
  (entry `512 g + k` is the table's `(g, k)`). Substituting these reads into the body's output block at `(p, q)`
  (Proof/KernelPay.lean) gives the specified cell at batch row `512 t + p`, entry `q`: point `t` writes back block `t` of
  `Cert.Gru.G` of the arguments (`flushed_eq`). Row `r` of the result lies in the block of point `r / 512` and every point
  writes back (`cover`), so the array after the run is `Cert.Gru.G` of the arguments (`final`, `run`).
-/
import proofs.«181213_j34548716929790_2_alg».proof.Proof.Gen.KernelIdeal.Value
import proofs.«181213_j34548716929790_2_alg».proof.Proof.KernelPay
import proofs.«181213_j34548716929790_2_alg».proof.Proof.Layout
import Idealize.ShloMosaic.Lib.StableHlo.Run

noncomputable section

open scoped BigOperators

namespace Cert.Gru.Blocks

open Idealize.ShloMosaic Idealize.ShloMosaic.ValueIdx Idealize.ShloMosaic.TcCoe Idealize.SL.Sem
open Cert.KernelIdeal Cert.KernelIdeal.Gen Cert.Gru.Kern
open Idealize.ShloMosaic.Pipeline (Dat)

variable (m : (ℓ : Loc nD τ sig) → Buf (Elt Ideal) ℓ) (ρ : Dev nD → PrngReg)

/-! ## The parameter arrays as the kernel finds them -/

/-- The input-side weight matrix the kernel finds: the argument stack transposed and flattened (its rounding to bf16 is
    the identity on the extended reals). -/
theorem V_wi (c : Dev nD) : (V m c main_v2 : S512x1536.Idx → EReal)
    = truncf (F := Ideal) .bf16 (shapeCast S512x1536 (transpose S512x3x512 [2, 0, 1] (m ((c : Thread nD τ).loc main_arg2) : S3x512x512.Idx → EReal) transposes_S3x512x512_S512x3x512_2_0_1) shapeCasts_S512x3x512_S512x1536) bitsLt_bf16_f32 := by
  dsimp only [Gen.V, Gen.hostOps0]; after_results; rfl

theorem V_wh (c : Dev nD) : (V m c main_v5 : S512x1536.Idx → EReal)
    = truncf (F := Ideal) .bf16 (shapeCast S512x1536 (transpose S512x3x512 [2, 0, 1] (m ((c : Thread nD τ).loc main_arg4) : S3x512x512.Idx → EReal) transposes_S3x512x512_S512x3x512_2_0_1) shapeCasts_S512x3x512_S512x1536) bitsLt_bf16_f32 := by
  dsimp only [Gen.V, Gen.hostOps0]; after_results; rfl

theorem V_row6 (c : Dev nD) : (V m c main_v6 : S1x1536.Idx → EReal) = shapeCast S1x1536 (m ((c : Thread nD τ).loc main_arg3)) shapeCasts_S3x512_S1x1536 := by
  dsimp only [Gen.V, Gen.hostOps0]; after_results; rfl
theorem V_row7 (c : Dev nD) : (V m c main_v7 : S1x1536.Idx → EReal) = shapeCast S1x1536 (m ((c : Thread nD τ).loc main_arg5)) shapeCasts_S3x512_S1x1536 := by
  dsimp only [Gen.V, Gen.hostOps0]; after_results; rfl
theorem V_row8 (c : Dev nD) : (V m c main_v8 : S1x1536.Idx → EReal) = shapeCast S1x1536 (m ((c : Thread nD τ).loc main_arg6)) shapeCasts_S3x512_S1x1536 := by
  dsimp only [Gen.V, Gen.hostOps0]; after_results; rfl
theorem V_row9 (c : Dev nD) : (V m c main_v9 : S1x1536.Idx → EReal) = shapeCast S1x1536 (m ((c : Thread nD τ).loc main_arg7)) shapeCasts_S3x512_S1x1536 := by
  dsimp only [Gen.V, Gen.hostOps0]; after_results; rfl
theorem V_row10 (c : Dev nD) : (V m c main_v10 : S1x1536.Idx → EReal) = shapeCast S1x1536 (m ((c : Thread nD τ).loc main_arg8)) shapeCasts_S3x512_S1x1536 := by
  dsimp only [Gen.V, Gen.hostOps0]; after_results; rfl
theorem V_row11 (c : Dev nD) : (V m c main_v11 : S1x1536.Idx → EReal) = shapeCast S1x1536 (m ((c : Thread nD τ).loc main_arg9)) shapeCasts_S3x512_S1x1536 := by
  dsimp only [Gen.V, Gen.hostOps0]; after_results; rfl

/-! ## The printed index maps, decided once over the grid -/

/-- The two batch-blocked inputs and the output move down the rows with the grid point; every parameter window stays
    at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-! ## The windows' blocks read at coordinates -/

/-- The batch row of entry `p` of the block of grid point `t`: 512 rows per point. -/
def rowOf (t : Fin cfg0.N) (p : Fin 512) : Fin 32768 :=
  ⟨t.val * 512 + p.val, by have := t.isLt; have hN : cfg0.N = 64 := N_0; have := p.isLt; omega⟩

/-- Point `t`'s block of `x` holds rows `512 t … 512 t + 511` of the argument. -/
theorem blk_x (c : Dev nD) (t : Fin cfg0.N) (p j : Fin 512) :
    iblk m c 0 t (ix2 p j) = (m ((c : Thread nD τ).loc main_arg0) : S32768x512.Idx → EReal) (ix2 (rowOf t p) j) := by
  show V m c main_arg0 (((cfg0.win 0).blk t).view.emb (ix2 p j)) = _
  rw [V_main_arg0]
  refine congrArg _ (funext fun a => Fin.ext ?_)
  obtain ⟨e0, e1, -⟩ := idx_facts t
  match a with
  | ⟨0, _⟩ => show win0_0.index t (0 : Fin 2) * 512 + 1 * p.val = t.val * 512 + p.val; rw [e0]; omega
  | ⟨1, _⟩ => show win0_0.index t (1 : Fin 2) * 512 + 1 * j.val = j.val; rw [e1]; omega

/-- Point `t`'s block of `h` holds the same rows of the old state. -/
theorem blk_h (c : Dev nD) (t : Fin cfg0.N) (p j : Fin 512) :
    iblk m c 1 t (ix2 p j) = (m ((c : Thread nD τ).loc main_arg1) : S32768x512.Idx → EReal) (ix2 (rowOf t p) j) := by
  show V m c main_arg1 (((cfg0.win 1).blk t).view.emb (ix2 p j)) = _
  rw [V_main_arg1]
  refine congrArg _ (funext fun a => Fin.ext ?_)
  obtain ⟨-, -, e0, e1, -⟩ := idx_facts t
  match a with
  | ⟨0, _⟩ => show win0_1.index t (0 : Fin 2) * 512 + 1 * p.val = t.val * 512 + p.val; rw [e0]; omega
  | ⟨1, _⟩ => show win0_1.index t (1 : Fin 2) * 512 + 1 * j.val = j.val; rw [e1]; omega

/-- Every point's block of the input-side weight matrix is the whole flattened matrix: at row `j`, column `o + k` with
    `o = 512 g`, the argument stack at `(g, k, j)`. -/
theorem blk_wi (c : Dev nD) (t : Fin cfg0.N) (g : Fin 3) (o : ℕ) (ho : o = g.val * 512) (j k : Fin 512) (hlt : o + k.val < 1536) :
    iblk m c 2 t (ix2 j (⟨o + k.val, hlt⟩ : Fin 1536)) = (m ((c : Thread nD τ).loc main_arg2) : S3x512x512.Idx → EReal) (ix3 g k j) := by
  have he : ((cfg0.win 2).blk t).view.emb (ix2 j (⟨o + k.val, hlt⟩ : Fin 1536)) = ix2 j (⟨o + k.val, hlt⟩ : Fin 1536) := by
    obtain ⟨-, -, -, -, -, -, e, -⟩ := idx_facts t
    refine funext fun a => Fin.ext ?_
    match a with
    | ⟨0, _⟩ => show win0_2.index t (0 : Fin 2) * 512 + 1 * j.val = j.val; rw [e]; omega
    | ⟨1, _⟩ => show win0_2.index t (1 : Fin 2) * 1536 + 1 * (o + k.val) = o + k.val; rw [e]; omega
  show V m c main_v2 (((cfg0.win 2).blk t).view.emb (ix2 j (⟨o + k.val, hlt⟩ : Fin 1536))) = _
  rw [he, V_wi]
  exact Cert.Gru.Layout.flatWeights_apply _ _ _ g o ho j k hlt

/-- The same for the hidden-side weight matrix. -/
theorem blk_wh (c : Dev nD) (t : Fin cfg0.N) (g : Fin 3) (o : ℕ) (ho : o = g.val * 512) (j k : Fin 512) (hlt : o + k.val < 1536) :
    iblk m c 3 t (ix2 j (⟨o + k.val, hlt⟩ : Fin 1536)) = (m ((c : Thread nD τ).loc main_arg4) : S3x512x512.Idx → EReal) (ix3 g k j) := by
  have he : ((cfg0.win 3).blk t).view.emb (ix2 j (⟨o + k.val, hlt⟩ : Fin 1536)) = ix2 j (⟨o + k.val, hlt⟩ : Fin 1536) := by
    obtain ⟨-, -, -, -, -, -, -, e, -⟩ := idx_facts t
    refine funext fun a => Fin.ext ?_
    match a with
    | ⟨0, _⟩ => show win0_3.index t (0 : Fin 2) * 512 + 1 * j.val = j.val; rw [e]; omega
    | ⟨1, _⟩ => show win0_3.index t (1 : Fin 2) * 1536 + 1 * (o + k.val) = o + k.val; rw [e]; omega
  show V m c main_v5 (((cfg0.win 3).blk t).view.emb (ix2 j (⟨o + k.val, hlt⟩ : Fin 1536))) = _
  rw [he, V_wh]
  exact Cert.Gru.Layout.flatWeights_apply _ _ _ g o ho j k hlt

/-- Every point's block of the input-side bias row is the whole flattened table: at column `o + k`, `o = 512 g`, the argument at `(g, k)`. -/
theorem blk_bi (c : Dev nD) (t : Fin cfg0.N) (g : Fin 3) (o : ℕ) (ho : o = g.val * 512) (k : Fin 512) (hlt : o + k.val < 1536) :
    iblk m c 4 t (ix2 (0 : Fin 1) (⟨o + k.val, hlt⟩ : Fin 1536)) = (m ((c : Thread nD τ).loc main_arg3) : S3x512.Idx → EReal) (ix2 g k) := by
  have he : ((cfg0.win 4).blk t).view.emb (ix2 (0 : Fin 1) (⟨o + k.val, hlt⟩ : Fin 1536)) = ix2 (0 : Fin 1) (⟨o + k.val, hlt⟩ : Fin 1536) := by
    obtain ⟨-, -, -, -, -, -, -, -, e, -⟩ := idx_facts t
    refine funext fun a => Fin.ext ?_
    match a with
    | ⟨0, _⟩ => show win0_4.index t (0 : Fin 2) * 1 + 1 * 0 = 0; rw [e]
    | ⟨1, _⟩ => show win0_4.index t (1 : Fin 2) * 1536 + 1 * (o + k.val) = o + k.val; rw [e]; omega
  show V m c main_v6 (((cfg0.win 4).blk t).view.emb (ix2 (0 : Fin 1) (⟨o + k.val, hlt⟩ : Fin 1536))) = _
  rw [he, V_row6]
  exact Cert.Gru.Layout.flatRow_apply _ _ g o ho k hlt

/-- The same for the hidden-side bias row. -/
theorem blk_bh (c : Dev nD) (t : Fin cfg0.N) (g : Fin 3) (o : ℕ) (ho : o = g.val * 512) (k : Fin 512) (hlt : o + k.val < 1536) :
    iblk m c 5 t (ix2 (0 : Fin 1) (⟨o + k.val, hlt⟩ : Fin 1536)) = (m ((c : Thread nD τ).loc main_arg5) : S3x512.Idx → EReal) (ix2 g k) := by
  have he : ((cfg0.win 5).blk t).view.emb (ix2 (0 : Fin 1) (⟨o + k.val, hlt⟩ : Fin 1536)) = ix2 (0 : Fin 1) (⟨o + k.val, hlt⟩ : Fin 1536) := by
    obtain ⟨-, -, -, -, -, -, -, -, -, e, -⟩ := idx_facts t
    refine funext fun a => Fin.ext ?_
    match a with
    | ⟨0, _⟩ => show win0_5.index t (0 : Fin 2) * 1 + 1 * 0 = 0; rw [e]
    | ⟨1, _⟩ => show win0_5.index t (1 : Fin 2) * 1536 + 1 * (o + k.val) = o + k.val; rw [e]; omega
  show V m c main_v7 (((cfg0.win 5).blk t).view.emb (ix2 (0 : Fin 1) (⟨o + k.val, hlt⟩ : Fin 1536))) = _
  rw [he, V_row7]
  exact Cert.Gru.Layout.flatRow_apply _ _ g o ho k hlt

/-- The same for the input-side gain row. -/
theorem blk_gi (c : Dev nD) (t : Fin cfg0.N) (g : Fin 3) (o : ℕ) (ho : o = g.val * 512) (k : Fin 512) (hlt : o + k.val < 1536) :
    iblk m c 6 t (ix2 (0 : Fin 1) (⟨o + k.val, hlt⟩ : Fin 1536)) = (m ((c : Thread nD τ).loc main_arg6) : S3x512.Idx → EReal) (ix2 g k) := by
  have he : ((cfg0.win 6).blk t).view.emb (ix2 (0 : Fin 1) (⟨o + k.val, hlt⟩ : Fin 1536)) = ix2 (0 : Fin 1) (⟨o + k.val, hlt⟩ : Fin 1536) := by
    obtain ⟨-, -, -, -, -, -, -, -, -, -, e, -⟩ := idx_facts t
    refine funext fun a => Fin.ext ?_
    match a with
    | ⟨0, _⟩ => show win0_6.index t (0 : Fin 2) * 1 + 1 * 0 = 0; rw [e]
    | ⟨1, _⟩ => show win0_6.index t (1 : Fin 2) * 1536 + 1 * (o + k.val) = o + k.val; rw [e]; omega
  show V m c main_v8 (((cfg0.win 6).blk t).view.emb (ix2 (0 : Fin 1) (⟨o + k.val, hlt⟩ : Fin 1536))) = _
  rw [he, V_row8]
  exact Cert.Gru.Layout.flatRow_apply _ _ g o ho k hlt

/-- The same for the input-side shift row. -/
theorem blk_si (c : Dev nD) (t : Fin cfg0.N) (g : Fin 3) (o : ℕ) (ho : o = g.val * 512) (k : Fin 512) (hlt : o + k.val < 1536) :
    iblk m c 7 t (ix2 (0 : Fin 1) (⟨o + k.val, hlt⟩ : Fin 1536)) = (m ((c : Thread nD τ).loc main_arg7) : S3x512.Idx → EReal) (ix2 g k) := by
  have he : ((cfg0.win 7).blk t).view.emb (ix2 (0 : Fin 1) (⟨o + k.val, hlt⟩ : Fin 1536)) = ix2 (0 : Fin 1) (⟨o + k.val, hlt⟩ : Fin 1536) := by
    obtain ⟨-, -, -, -, -, -, -, -, -, -, -, e, -⟩ := idx_facts t
    refine funext fun a => Fin.ext ?_
    match a with
    | ⟨0, _⟩ => show win0_7.index t (0 : Fin 2) * 1 + 1 * 0 = 0; rw [e]
    | ⟨1, _⟩ => show win0_7.index t (1 : Fin 2) * 1536 + 1 * (o + k.val) = o + k.val; rw [e]; omega
  show V m c main_v9 (((cfg0.win 7).blk t).view.emb (ix2 (0 : Fin 1) (⟨o + k.val, hlt⟩ : Fin 1536))) = _
  rw [he, V_row9]
  exact Cert.Gru.Layout.flatRow_apply _ _ g o ho k hlt

/-- The same for the hidden-side gain row. -/
theorem blk_gh (c : Dev nD) (t : Fin cfg0.N) (g : Fin 3) (o : ℕ) (ho : o = g.val * 512) (k : Fin 512) (hlt : o + k.val < 1536) :
    iblk m c 8 t (ix2 (0 : Fin 1) (⟨o + k.val, hlt⟩ : Fin 1536)) = (m ((c : Thread nD τ).loc main_arg8) : S3x512.Idx → EReal) (ix2 g k) := by
  have he : ((cfg0.win 8).blk t).view.emb (ix2 (0 : Fin 1) (⟨o + k.val, hlt⟩ : Fin 1536)) = ix2 (0 : Fin 1) (⟨o + k.val, hlt⟩ : Fin 1536) := by
    obtain ⟨-, -, -, -, -, -, -, -, -, -, -, -, e, -⟩ := idx_facts t
    refine funext fun a => Fin.ext ?_
    match a with
    | ⟨0, _⟩ => show win0_8.index t (0 : Fin 2) * 1 + 1 * 0 = 0; rw [e]
    | ⟨1, _⟩ => show win0_8.index t (1 : Fin 2) * 1536 + 1 * (o + k.val) = o + k.val; rw [e]; omega
  show V m c main_v10 (((cfg0.win 8).blk t).view.emb (ix2 (0 : Fin 1) (⟨o + k.val, hlt⟩ : Fin 1536))) = _
  rw [he, V_row10]
  exact Cert.Gru.Layout.flatRow_apply _ _ g o ho k hlt

/-- The same for the hidden-side shift row. -/
theorem blk_sh (c : Dev nD) (t : Fin cfg0.N) (g : Fin 3) (o : ℕ) (ho : o = g.val * 512) (k : Fin 512) (hlt : o + k.val < 1536) :
    iblk m c 9 t (ix2 (0 : Fin 1) (⟨o + k.val, hlt⟩ : Fin 1536)) = (m ((c : Thread nD τ).loc main_arg9) : S3x512.Idx → EReal) (ix2 g k) := by
  have he : ((cfg0.win 9).blk t).view.emb (ix2 (0 : Fin 1) (⟨o + k.val, hlt⟩ : Fin 1536)) = ix2 (0 : Fin 1) (⟨o + k.val, hlt⟩ : Fin 1536) := by
    obtain ⟨-, -, -, -, -, -, -, -, -, -, -, -, -, e⟩ := idx_facts t
    refine funext fun a => Fin.ext ?_
    match a with
    | ⟨0, _⟩ => show win0_9.index t (0 : Fin 2) * 1 + 1 * 0 = 0; rw [e]
    | ⟨1, _⟩ => show win0_9.index t (1 : Fin 2) * 1536 + 1 * (o + k.val) = o + k.val; rw [e]; omega
  show V m c main_v11 (((cfg0.win 9).blk t).view.emb (ix2 (0 : Fin 1) (⟨o + k.val, hlt⟩ : Fin 1536))) = _
  rw [he, V_row11]
  exact Cert.Gru.Layout.flatRow_apply _ _ g o ho k hlt

/-! ## One gate of one block is the specified gate of its batch rows -/

/-- A block-level gate value, computed from blocks whose entries are entries of the argument arrays as stated, is the
    specified gate value of batch row `r`. -/
theorem gateB_eq (x : FVec Ideal S512x512 .f32) (W : FVec Ideal S512x1536 .bf16) (b γ β : FVec Ideal S1x1536 .f32)
    (A : FVec Ideal S32768x512 .f32) (Wt : FVec Ideal S3x512x512 .f32) (B Γ Sh : FVec Ideal S3x512 .f32)
    (g : Fin 3) (o : ℕ) (ho : o + 512 ≤ 1536) (p q : Fin 512) (r : Fin 32768)
    (hx : ∀ j : Fin 512, x (ix2 p j) = A (ix2 r j))
    (hW : ∀ (j k : Fin 512) (hlt : o + k.val < 1536), W (ix2 j (⟨o + k.val, hlt⟩ : Fin 1536)) = Wt (ix3 g k j))
    (hb : ∀ (k : Fin 512) (hlt : o + k.val < 1536), b (ix2 (0 : Fin 1) (⟨o + k.val, hlt⟩ : Fin 1536)) = B (ix2 g k))
    (hγ : ∀ (k : Fin 512) (hlt : o + k.val < 1536), γ (ix2 (0 : Fin 1) (⟨o + k.val, hlt⟩ : Fin 1536)) = Γ (ix2 g k))
    (hβ : ∀ (k : Fin 512) (hlt : o + k.val < 1536), β (ix2 (0 : Fin 1) (⟨o + k.val, hlt⟩ : Fin 1536)) = Sh (ix2 g k)) :
    gateB x W b γ β o ho p q = Cert.Gru.gate A Wt B Γ Sh r g q := by
  unfold gateB Cert.Gru.gate
  rw [hγ, hβ]
  refine congrArg (fun y => Cert.Gru.layerNorm y _ _ q) (funext fun k => ?_)
  unfold preB Cert.Gru.pre
  rw [hb]
  refine congrArg (· + B (ix2 g k)) (Finset.sum_congr rfl fun j _ => ?_)
  rw [hx, hW]

/-! ## What a grid point writes back, the cover, and the array after the run -/

/-- The specified result array of the memory the run starts from. -/
abbrev Gm (c : Dev nD) : S32768x512.Idx → EReal :=
  Cert.Gru.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- WHAT POINT `t` WRITES BACK is block `t` of the specified array: rows `512 t … 512 t + 511`. -/
theorem flushed_eq (c : Dev nD) (t : Fin cfg0.N) :
    (dats m 0 c).flushed 10 t = ((cfg0.win 10).blk t).view.read (Elt Ideal) (Gm m c) := by
  rw [Cert.KernelIdeal.Value.flushed10]
  funext y
  obtain ⟨p, q, rfl⟩ : ∃ (p q : Fin 512), y = ix2 p q := ⟨y 0, y 1, eq_ix2 y⟩
  have hemb : ((cfg0.win 10).blk t).view.emb (ix2 p q) = ix2 (rowOf t p) q := by
    obtain ⟨-, -, -, -, e0, e1, -⟩ := idx_facts t
    refine funext fun a => Fin.ext ?_
    match a with
    | ⟨0, _⟩ => show win0_10.index t (0 : Fin 2) * 512 + 1 * p.val = t.val * 512 + p.val; rw [e0]; omega
    | ⟨1, _⟩ => show win0_10.index t (1 : Fin 2) * 512 + 1 * q.val = q.val; rw [e1]; omega
  show out0_10 (iblk m c 0 t) (iblk m c 1 t) (iblk m c 2 t) (iblk m c 3 t) (iblk m c 4 t) (iblk m c 5 t) (iblk m c 6 t) (iblk m c 7 t) (iblk m c 8 t) (iblk m c 9 t) (ix2 p q)
    = Gm m c (((cfg0.win 10).blk t).view.emb (ix2 p q))
  rw [hemb]
  refine (out_apply (iblk m c 0 t) (iblk m c 1 t) (iblk m c 2 t) (iblk m c 3 t) (iblk m c 4 t) (iblk m c 5 t) (iblk m c 6 t) (iblk m c 7 t) (iblk m c 8 t) (iblk m c 9 t) p q).trans ?_
  show _ = Cert.Gru.cell _ _ _ _ _ _ _ _ _ _ (rowOf t p) q
  unfold Cert.Gru.cell
  rw [gateB_eq (iblk m c 0 t) (iblk m c 2 t) (iblk m c 4 t) (iblk m c 6 t) (iblk m c 7 t) _ _ _ _ _ 0 0 (by decide) p q (rowOf t p)
      (fun j => blk_x m c t p j) (fun j k hlt => blk_wi m c t 0 0 rfl j k hlt) (fun k hlt => blk_bi m c t 0 0 rfl k hlt)
      (fun k hlt => blk_gi m c t 0 0 rfl k hlt) (fun k hlt => blk_si m c t 0 0 rfl k hlt),
    gateB_eq (iblk m c 0 t) (iblk m c 2 t) (iblk m c 4 t) (iblk m c 6 t) (iblk m c 7 t) _ _ _ _ _ 1 512 (by decide) p q (rowOf t p)
      (fun j => blk_x m c t p j) (fun j k hlt => blk_wi m c t 1 512 rfl j k hlt) (fun k hlt => blk_bi m c t 1 512 rfl k hlt)
      (fun k hlt => blk_gi m c t 1 512 rfl k hlt) (fun k hlt => blk_si m c t 1 512 rfl k hlt),
    gateB_eq (iblk m c 0 t) (iblk m c 2 t) (iblk m c 4 t) (iblk m c 6 t) (iblk m c 7 t) _ _ _ _ _ 2 1024 (by decide) p q (rowOf t p)
      (fun j => blk_x m c t p j) (fun j k hlt => blk_wi m c t 2 1024 rfl j k hlt) (fun k hlt => blk_bi m c t 2 1024 rfl k hlt)
      (fun k hlt => blk_gi m c t 2 1024 rfl k hlt) (fun k hlt => blk_si m c t 2 1024 rfl k hlt),
    gateB_eq (iblk m c 1 t) (iblk m c 3 t) (iblk m c 5 t) (iblk m c 8 t) (iblk m c 9 t) _ _ _ _ _ 0 0 (by decide) p q (rowOf t p)
      (fun j => blk_h m c t p j) (fun j k hlt => blk_wh m c t 0 0 rfl j k hlt) (fun k hlt => blk_bh m c t 0 0 rfl k hlt)
      (fun k hlt => blk_gh m c t 0 0 rfl k hlt) (fun k hlt => blk_sh m c t 0 0 rfl k hlt),
    gateB_eq (iblk m c 1 t) (iblk m c 3 t) (iblk m c 5 t) (iblk m c 8 t) (iblk m c 9 t) _ _ _ _ _ 1 512 (by decide) p q (rowOf t p)
      (fun j => blk_h m c t p j) (fun j k hlt => blk_wh m c t 1 512 rfl j k hlt) (fun k hlt => blk_bh m c t 1 512 rfl k hlt)
      (fun k hlt => blk_gh m c t 1 512 rfl k hlt) (fun k hlt => blk_sh m c t 1 512 rfl k hlt),
    gateB_eq (iblk m c 1 t) (iblk m c 3 t) (iblk m c 5 t) (iblk m c 8 t) (iblk m c 9 t) _ _ _ _ _ 2 1024 (by decide) p q (rowOf t p)
      (fun j => blk_h m c t p j) (fun j k hlt => blk_wh m c t 2 1024 rfl j k hlt) (fun k hlt => blk_bh m c t 2 1024 rfl k hlt)
      (fun k hlt => blk_gh m c t 2 1024 rfl k hlt) (fun k hlt => blk_sh m c t 2 1024 rfl k hlt),
    blk_h m c t p q]

/-- An index of the result array is in point `t`'s block iff each coordinate is in the block's range on its axis. -/
theorem mem_blk (t : Fin cfg0.N) (i : S32768x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v12).slice (win0_10.rect t)).set ↔ _
  rw [View.set_slice_whole, Rect.mem_set_unit]
  exact Iff.rfl

/-- THE COVER: row `r` of the result lies in the block of point `r / 512`, and every point writes back. -/
theorem cover (i : S32768x512.Idx) : ∃ t : Fin cfg0.N, (cfg0.win 10).flush t = true ∧ i ∈ ((cfg0.win 10).blk t).view.set := by
  have hN : cfg0.N = 64 := N_0
  have hi0 : (i 0).val < 32768 := (i 0).isLt
  have hi1 : (i 1).val < 512 := (i 1).isLt
  have hlt : (i 0).val / 512 < cfg0.N := by omega
  refine ⟨⟨(i 0).val / 512, hlt⟩, flush0_10 _, ?_⟩
  rw [mem_blk]
  obtain ⟨-, -, -, -, e0, e1, -⟩ := idx_facts ⟨(i 0).val / 512, hlt⟩
  intro a
  match a with
  | ⟨0, _⟩ =>
    show win0_10.index ⟨(i 0).val / 512, hlt⟩ (0 : Fin 2) * 512 ≤ (i 0).val ∧ (i 0).val < win0_10.index ⟨(i 0).val / 512, hlt⟩ (0 : Fin 2) * 512 + 512
    rw [e0]
    show (i 0).val / 512 * 512 ≤ (i 0).val ∧ (i 0).val < (i 0).val / 512 * 512 + 512
    omega
  | ⟨1, _⟩ =>
    show win0_10.index ⟨(i 0).val / 512, hlt⟩ (1 : Fin 2) * 512 ≤ (i 1).val ∧ (i 1).val < win0_10.index ⟨(i 0).val / 512, hlt⟩ (1 : Fin 2) * 512 + 512
    rw [e1]
    omega

/-- THE ARRAY after the run is the specified one: the 64 written blocks are its 64 blocks of 512 rows. -/
theorem final (c : Dev nD) : (dats m 0 c).arrAt 10 cfg0.N = Gm m c :=
  (dats m 0 c).arrAt_eq_of_cover 10 (Gm m c) (fun t _ => flushed_eq m c t) cover

/-- The kernel's run, read: the result array ends at the specified cell of the arguments, which end unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Gru.Blocks

end
-- ==== Proof.RefIsSpec.lean ====
/-
  The reference program computes the specified cell.

  The reference is a chain of array operations; each is read at one index from its operands at an index. Followed
  from the arguments, the chain is, at batch row `r`, gate `g` and entry `e`: the contraction over 512 columns plus the
  bias (the pre-activation), the row's sum over 512 entries divided by the word of 512 (the mean), the row's sum of
  squared deviations divided by the same word (the variance), the centred entry times the reciprocal square root of
  variance plus ε, times the gain, plus the shift. This is done once for the input side and once for the hidden side,
  in the same way. The three gates are then cut out of the `[32768, 3, 512]` arrays by a slice and a reshape, and
  the cell combines them entry by entry. Every operation on the extended reals is, by definition, the one the
  specification names, so each step is an unfolding; the only computations are on indices, and the one constant that
  is evaluated is the word of 1.0 inside the two logistic functions, which the program writes as `1 / (1 + exp (−t))`.
-/
import proofs.«181213_j34548716929790_2_alg».proof.Proof.Gen.ReferenceIdeal.Read
import proofs.«181213_j34548716929790_2_alg».proof.Proof.Spec
import Idealize.ShloMosaic.Lib.ValueIdx
import Idealize.ShloMosaic.PureOps.Ideal.Laws

noncomputable section

open scoped BigOperators

namespace Cert.Gru.Ref

open Idealize.ShloMosaic Idealize.ShloMosaic.ValueIdx Cert.ReferenceIdeal Cert.ReferenceIdeal.Read

section

variable (x0 x1 : FVec Ideal S32768x512 .f32) (x2 : FVec Ideal S3x512x512 .f32) (x3 : FVec Ideal S3x512 .f32)
  (x4 : FVec Ideal S3x512x512 .f32) (x5 x6 x7 x8 x9 : FVec Ideal S3x512 .f32)

/-! ## The input side: the affine map, then the normalisation of each row of 512 entries -/

/-- The contraction reads row `r` of the left factor at column `k`. -/
theorem lidxI (r : Fin 32768) (g : Fin 3) (e : Fin 512) (k : Fin 512) : lidx_main_v0 (ix3 r g e) k = ix2 r k := by
  funext a; match a with | ⟨0, _⟩ => rfl | ⟨1, _⟩ => rfl
/-- The contraction reads row `e` of the weight matrix of gate `g` at column `k`. -/
theorem ridxI (r : Fin 32768) (g : Fin 3) (e : Fin 512) (k : Fin 512) : ridx_main_v0 (ix3 r g e) k = ix3 g e k := by
  funext a; match a with | ⟨0, _⟩ => rfl | ⟨1, _⟩ => rfl | ⟨2, _⟩ => rfl
/-- The bias, broadcast along the batch axis, is read at `(g, e)`. -/
theorem biasI (r : Fin 32768) (g : Fin 3) (e : Fin 512) : idx_main_v1 (idx_main_v2 (ix3 r g e)) = ix2 g e := by
  funext a; match a with | ⟨0, _⟩ => rfl | ⟨1, _⟩ => rfl
/-- The first row sum runs over the last coordinate. -/
theorem sumAI (r : Fin 32768) (g : Fin 3) (k : Fin 512) : idx_main_v4 (ix2 r g) k = ix3 r g k := by
  funext a; match a with | ⟨0, _⟩ => rfl | ⟨1, _⟩ => rfl | ⟨2, _⟩ => rfl
/-- The first row sum, kept as a column, is read at `(r, g)`. -/
theorem colAI (r : Fin 32768) (g : Fin 3) (u : Fin 1) : idx_main_v5 (ix3 r g u) = ix2 r g := by
  funext a; match a with | ⟨0, _⟩ => rfl | ⟨1, _⟩ => rfl
/-- The mean, broadcast along the row, is read at the column's only entry. -/
theorem rowAI (r : Fin 32768) (g : Fin 3) (e : Fin 512) : idx_main_v8 (ix3 r g e) = ix3 r g (0 : Fin 1) := by
  funext a; match a with | ⟨0, _⟩ => rfl | ⟨1, _⟩ => rfl | ⟨2, _⟩ => rfl
/-- The second row sum runs over the last coordinate. -/
theorem sumBI (r : Fin 32768) (g : Fin 3) (k : Fin 512) : idx_main_v11 (ix2 r g) k = ix3 r g k := by
  funext a; match a with | ⟨0, _⟩ => rfl | ⟨1, _⟩ => rfl | ⟨2, _⟩ => rfl
/-- The second row sum, kept as a column, is read at `(r, g)`. -/
theorem colBI (r : Fin 32768) (g : Fin 3) (u : Fin 1) : idx_main_v12 (ix3 r g u) = ix2 r g := by
  funext a; match a with | ⟨0, _⟩ => rfl | ⟨1, _⟩ => rfl
/-- The mean, broadcast a second time along the row. -/
theorem rowBI (r : Fin 32768) (g : Fin 3) (e : Fin 512) : idx_main_v15 (ix3 r g e) = ix3 r g (0 : Fin 1) := by
  funext a; match a with | ⟨0, _⟩ => rfl | ⟨1, _⟩ => rfl | ⟨2, _⟩ => rfl
/-- The reciprocal square root, broadcast along the row. -/
theorem rowCI (r : Fin 32768) (g : Fin 3) (e : Fin 512) : idx_main_v20 (ix3 r g e) = ix3 r g (0 : Fin 1) := by
  funext a; match a with | ⟨0, _⟩ => rfl | ⟨1, _⟩ => rfl | ⟨2, _⟩ => rfl
/-- The gain, broadcast along the batch axis, is read at `(g, e)`. -/
theorem gainI (r : Fin 32768) (g : Fin 3) (e : Fin 512) : idx_main_v22 (idx_main_v23 (ix3 r g e)) = ix2 g e := by
  funext a; match a with | ⟨0, _⟩ => rfl | ⟨1, _⟩ => rfl
/-- The shift, broadcast along the batch axis, is read at `(g, e)`. -/
theorem shiftI (r : Fin 32768) (g : Fin 3) (e : Fin 512) : idx_main_v25 (idx_main_v26 (ix3 r g e)) = ix2 g e := by
  funext a; match a with | ⟨0, _⟩ => rfl | ⟨1, _⟩ => rfl

/-- The affine map at `(r, g, e)` is the specification's pre-activation. -/
theorem preI (r : Fin 32768) (g : Fin 3) (e : Fin 512) : val_main_v3 (F := Ideal) x0 x2 x3 (ix3 r g e) = pre x0 x2 x3 r g e := by
  rw [val_main_v3_apply, val_main_v0_apply, val_main_v2_apply, val_main_v1_apply, biasI]
  simp only [lidxI, ridxI]
  rfl

/-- The sum of a pre-activation row; the sum starts from the zero word, which is the real number zero. -/
theorem sum1I (r : Fin 32768) (g : Fin 3) : val_main_v4 (F := Ideal) x0 x2 x3 (ix2 r g) = ∑ k : Fin 512, pre x0 x2 x3 r g k := by
  rw [val_main_v4_apply, val_main_cst_apply, Ideal.ofBits_def, Ideal.ofBits_zero_f32, zero_add]
  simp only [sumAI, preI]

/-- The row's mean. -/
theorem meanI (r : Fin 32768) (g : Fin 3) : val_main_v7 (F := Ideal) x0 x2 x3 (ix3 r g (0 : Fin 1)) = rowMean (pre x0 x2 x3 r g) := by
  rw [val_main_v7_apply, val_main_v5_apply, val_main_v6_apply, val_main_cst_0_apply, colAI, sum1I]
  rfl

/-- The mean at every entry of its row (first use: the squared deviations). -/
theorem meanAI (r : Fin 32768) (g : Fin 3) (e : Fin 512) : val_main_v8 (F := Ideal) x0 x2 x3 (ix3 r g e) = rowMean (pre x0 x2 x3 r g) := by
  rw [val_main_v8_apply, rowAI, meanI]

/-- The mean at every entry of its row (second use: the centred entry). -/
theorem meanBI (r : Fin 32768) (g : Fin 3) (e : Fin 512) : val_main_v15 (F := Ideal) x0 x2 x3 (ix3 r g e) = rowMean (pre x0 x2 x3 r g) := by
  rw [val_main_v15_apply, rowBI, meanI]

/-- The squared deviation of one entry from its row's mean. -/
theorem sqI (r : Fin 32768) (g : Fin 3) (e : Fin 512) : val_main_v10 (F := Ideal) x0 x2 x3 (ix3 r g e)
    = (pre x0 x2 x3 r g e - rowMean (pre x0 x2 x3 r g)) * (pre x0 x2 x3 r g e - rowMean (pre x0 x2 x3 r g)) := by
  rw [val_main_v10_apply, val_main_v9_apply, preI, meanAI]
  rfl

/-- The sum of a row's squared deviations. -/
theorem sum2I (r : Fin 32768) (g : Fin 3) : val_main_v11 (F := Ideal) x0 x2 x3 (ix2 r g)
    = ∑ k : Fin 512, (pre x0 x2 x3 r g k - rowMean (pre x0 x2 x3 r g)) * (pre x0 x2 x3 r g k - rowMean (pre x0 x2 x3 r g)) := by
  rw [val_main_v11_apply, val_main_cst_1_apply, Ideal.ofBits_def, Ideal.ofBits_zero_f32, zero_add]
  simp only [sumBI, sqI]

/-- The row's variance. -/
theorem varI (r : Fin 32768) (g : Fin 3) : val_main_v14 (F := Ideal) x0 x2 x3 (ix3 r g (0 : Fin 1)) = rowVar (pre x0 x2 x3 r g) := by
  rw [val_main_v14_apply, val_main_v12_apply, val_main_v13_apply, val_main_cst_2_apply, colBI, sum2I]
  rfl

/-- The reciprocal square root of the variance plus ε. -/
theorem rsI (r : Fin 32768) (g : Fin 3) : val_main_v19 (F := Ideal) x0 x2 x3 (ix3 r g (0 : Fin 1)) = Ideal.rsqrt (rowVar (pre x0 x2 x3 r g) + wEps) := by
  rw [val_main_v19_apply, val_main_v18_apply, val_main_v17_apply, val_main_cst_3_apply, varI]
  rfl

/-- The centred entry times the reciprocal square root. -/
theorem normI (r : Fin 32768) (g : Fin 3) (e : Fin 512) : val_main_v21 (F := Ideal) x0 x2 x3 (ix3 r g e)
    = (pre x0 x2 x3 r g e - rowMean (pre x0 x2 x3 r g)) * Ideal.rsqrt (rowVar (pre x0 x2 x3 r g) + wEps) := by
  rw [val_main_v21_apply, val_main_v16_apply, val_main_v20_apply, rowCI, rsI, preI, meanBI]
  rfl

/-- The normalised row with its gain and shift is the specification's gate value. -/
theorem gateI (r : Fin 32768) (g : Fin 3) (e : Fin 512) : val_main_v27 (F := Ideal) x0 x2 x3 x6 x7 (ix3 r g e) = gate x0 x2 x3 x6 x7 r g e := by
  rw [val_main_v27_apply, val_main_v24_apply, val_main_v26_apply, val_main_v25_apply, val_main_v23_apply, val_main_v22_apply, gainI, shiftI, normI]
  rfl

/-! ## The hidden side: the affine map, then the normalisation of each row of 512 entries -/

/-- The contraction reads row `r` of the left factor at column `k`. -/
theorem lidxH (r : Fin 32768) (g : Fin 3) (e : Fin 512) (k : Fin 512) : lidx_main_v28 (ix3 r g e) k = ix2 r k := by
  funext a; match a with | ⟨0, _⟩ => rfl | ⟨1, _⟩ => rfl
/-- The contraction reads row `e` of the weight matrix of gate `g` at column `k`. -/
theorem ridxH (r : Fin 32768) (g : Fin 3) (e : Fin 512) (k : Fin 512) : ridx_main_v28 (ix3 r g e) k = ix3 g e k := by
  funext a; match a with | ⟨0, _⟩ => rfl | ⟨1, _⟩ => rfl | ⟨2, _⟩ => rfl
/-- The bias, broadcast along the batch axis, is read at `(g, e)`. -/
theorem biasH (r : Fin 32768) (g : Fin 3) (e : Fin 512) : idx_main_v29 (idx_main_v30 (ix3 r g e)) = ix2 g e := by
  funext a; match a with | ⟨0, _⟩ => rfl | ⟨1, _⟩ => rfl
/-- The first row sum runs over the last coordinate. -/
theorem sumAH (r : Fin 32768) (g : Fin 3) (k : Fin 512) : idx_main_v32 (ix2 r g) k = ix3 r g k := by
  funext a; match a with | ⟨0, _⟩ => rfl | ⟨1, _⟩ => rfl | ⟨2, _⟩ => rfl
/-- The first row sum, kept as a column, is read at `(r, g)`. -/
theorem colAH (r : Fin 32768) (g : Fin 3) (u : Fin 1) : idx_main_v33 (ix3 r g u) = ix2 r g := by
  funext a; match a with | ⟨0, _⟩ => rfl | ⟨1, _⟩ => rfl
/-- The mean, broadcast along the row, is read at the column's only entry. -/
theorem rowAH (r : Fin 32768) (g : Fin 3) (e : Fin 512) : idx_main_v36 (ix3 r g e) = ix3 r g (0 : Fin 1) := by
  funext a; match a with | ⟨0, _⟩ => rfl | ⟨1, _⟩ => rfl | ⟨2, _⟩ => rfl
/-- The second row sum runs over the last coordinate. -/
theorem sumBH (r : Fin 32768) (g : Fin 3) (k : Fin 512) : idx_main_v39 (ix2 r g) k = ix3 r g k := by
  funext a; match a with | ⟨0, _⟩ => rfl | ⟨1, _⟩ => rfl | ⟨2, _⟩ => rfl
/-- The second row sum, kept as a column, is read at `(r, g)`. -/
theorem colBH (r : Fin 32768) (g : Fin 3) (u : Fin 1) : idx_main_v40 (ix3 r g u) = ix2 r g := by
  funext a; match a with | ⟨0, _⟩ => rfl | ⟨1, _⟩ => rfl
/-- The mean, broadcast a second time along the row. -/
theorem rowBH (r : Fin 32768) (g : Fin 3) (e : Fin 512) : idx_main_v43 (ix3 r g e) = ix3 r g (0 : Fin 1) := by
  funext a; match a with | ⟨0, _⟩ => rfl | ⟨1, _⟩ => rfl | ⟨2, _⟩ => rfl
/-- The reciprocal square root, broadcast along the row. -/
theorem rowCH (r : Fin 32768) (g : Fin 3) (e : Fin 512) : idx_main_v48 (ix3 r g e) = ix3 r g (0 : Fin 1) := by
  funext a; match a with | ⟨0, _⟩ => rfl | ⟨1, _⟩ => rfl | ⟨2, _⟩ => rfl
/-- The gain, broadcast along the batch axis, is read at `(g, e)`. -/
theorem gainH (r : Fin 32768) (g : Fin 3) (e : Fin 512) : idx_main_v50 (idx_main_v51 (ix3 r g e)) = ix2 g e := by
  funext a; match a with | ⟨0, _⟩ => rfl | ⟨1, _⟩ => rfl
/-- The shift, broadcast along the batch axis, is read at `(g, e)`. -/
theorem shiftH (r : Fin 32768) (g : Fin 3) (e : Fin 512) : idx_main_v53 (idx_main_v54 (ix3 r g e)) = ix2 g e := by
  funext a; match a with | ⟨0, _⟩ => rfl | ⟨1, _⟩ => rfl

/-- The affine map at `(r, g, e)` is the specification's pre-activation. -/
theorem preH (r : Fin 32768) (g : Fin 3) (e : Fin 512) : val_main_v31 (F := Ideal) x1 x4 x5 (ix3 r g e) = pre x1 x4 x5 r g e := by
  rw [val_main_v31_apply, val_main_v28_apply, val_main_v30_apply, val_main_v29_apply, biasH]
  simp only [lidxH, ridxH]
  rfl

/-- The sum of a pre-activation row; the sum starts from the zero word, which is the real number zero. -/
theorem sum1H (r : Fin 32768) (g : Fin 3) : val_main_v32 (F := Ideal) x1 x4 x5 (ix2 r g) = ∑ k : Fin 512, pre x1 x4 x5 r g k := by
  rw [val_main_v32_apply, val_main_cst_4_apply, Ideal.ofBits_def, Ideal.ofBits_zero_f32, zero_add]
  simp only [sumAH, preH]

/-- The row's mean. -/
theorem meanH (r : Fin 32768) (g : Fin 3) : val_main_v35 (F := Ideal) x1 x4 x5 (ix3 r g (0 : Fin 1)) = rowMean (pre x1 x4 x5 r g) := by
  rw [val_main_v35_apply, val_main_v33_apply, val_main_v34_apply, val_main_cst_5_apply, colAH, sum1H]
  rfl

/-- The mean at every entry of its row (first use: the squared deviations). -/
theorem meanAH (r : Fin 32768) (g : Fin 3) (e : Fin 512) : val_main_v36 (F := Ideal) x1 x4 x5 (ix3 r g e) = rowMean (pre x1 x4 x5 r g) := by
  rw [val_main_v36_apply, rowAH, meanH]

/-- The mean at every entry of its row (second use: the centred entry). -/
theorem meanBH (r : Fin 32768) (g : Fin 3) (e : Fin 512) : val_main_v43 (F := Ideal) x1 x4 x5 (ix3 r g e) = rowMean (pre x1 x4 x5 r g) := by
  rw [val_main_v43_apply, rowBH, meanH]

/-- The squared deviation of one entry from its row's mean. -/
theorem sqH (r : Fin 32768) (g : Fin 3) (e : Fin 512) : val_main_v38 (F := Ideal) x1 x4 x5 (ix3 r g e)
    = (pre x1 x4 x5 r g e - rowMean (pre x1 x4 x5 r g)) * (pre x1 x4 x5 r g e - rowMean (pre x1 x4 x5 r g)) := by
  rw [val_main_v38_apply, val_main_v37_apply, preH, meanAH]
  rfl

/-- The sum of a row's squared deviations. -/
theorem sum2H (r : Fin 32768) (g : Fin 3) : val_main_v39 (F := Ideal) x1 x4 x5 (ix2 r g)
    = ∑ k : Fin 512, (pre x1 x4 x5 r g k - rowMean (pre x1 x4 x5 r g)) * (pre x1 x4 x5 r g k - rowMean (pre x1 x4 x5 r g)) := by
  rw [val_main_v39_apply, val_main_cst_6_apply, Ideal.ofBits_def, Ideal.ofBits_zero_f32, zero_add]
  simp only [sumBH, sqH]

/-- The row's variance. -/
theorem varH (r : Fin 32768) (g : Fin 3) : val_main_v42 (F := Ideal) x1 x4 x5 (ix3 r g (0 : Fin 1)) = rowVar (pre x1 x4 x5 r g) := by
  rw [val_main_v42_apply, val_main_v40_apply, val_main_v41_apply, val_main_cst_7_apply, colBH, sum2H]
  rfl

/-- The reciprocal square root of the variance plus ε. -/
theorem rsH (r : Fin 32768) (g : Fin 3) : val_main_v47 (F := Ideal) x1 x4 x5 (ix3 r g (0 : Fin 1)) = Ideal.rsqrt (rowVar (pre x1 x4 x5 r g) + wEps) := by
  rw [val_main_v47_apply, val_main_v46_apply, val_main_v45_apply, val_main_cst_8_apply, varH]
  rfl

/-- The centred entry times the reciprocal square root. -/
theorem normH (r : Fin 32768) (g : Fin 3) (e : Fin 512) : val_main_v49 (F := Ideal) x1 x4 x5 (ix3 r g e)
    = (pre x1 x4 x5 r g e - rowMean (pre x1 x4 x5 r g)) * Ideal.rsqrt (rowVar (pre x1 x4 x5 r g) + wEps) := by
  rw [val_main_v49_apply, val_main_v44_apply, val_main_v48_apply, rowCH, rsH, preH, meanBH]
  rfl

/-- The normalised row with its gain and shift is the specification's gate value. -/
theorem gateH (r : Fin 32768) (g : Fin 3) (e : Fin 512) : val_main_v55 (F := Ideal) x1 x4 x5 x8 x9 (ix3 r g e) = gate x1 x4 x5 x8 x9 r g e := by
  rw [val_main_v55_apply, val_main_v52_apply, val_main_v54_apply, val_main_v53_apply, val_main_v51_apply, val_main_v50_apply, gainH, shiftH, normH]
  rfl

/-! ## The three gates and the cell -/

/-- Gate 0 of the input side: the slice keeps gate 0, the reshape drops the unit axis; position
    `r * 512 + e` of the row-major order has quotient `r` and remainder `e`. -/
theorem selI0 (r : Fin 32768) (e : Fin 512) : idx_main_v56 (idx_main_v57 (ix2 r e)) = ix3 r (0 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 0 of the input side, as a `[32768, 512]` array, is the specification's gate value. -/
theorem gI0 (r : Fin 32768) (e : Fin 512) : val_main_v57 (F := Ideal) x0 x2 x3 x6 x7 (ix2 r e) = gate x0 x2 x3 x6 x7 r 0 e := by
  rw [val_main_v57_apply, val_main_v56_apply, selI0, gateI]

/-- Gate 0 of the hidden side: the slice keeps gate 0, the reshape drops the unit axis; position
    `r * 512 + e` of the row-major order has quotient `r` and remainder `e`. -/
theorem selH0 (r : Fin 32768) (e : Fin 512) : idx_main_v58 (idx_main_v59 (ix2 r e)) = ix3 r (0 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 0 of the hidden side, as a `[32768, 512]` array, is the specification's gate value. -/
theorem gH0 (r : Fin 32768) (e : Fin 512) : val_main_v59 (F := Ideal) x1 x4 x5 x8 x9 (ix2 r e) = gate x1 x4 x5 x8 x9 r 0 e := by
  rw [val_main_v59_apply, val_main_v58_apply, selH0, gateH]

/-- Gate 1 of the input side: the slice keeps gate 1, the reshape drops the unit axis; position
    `r * 512 + e` of the row-major order has quotient `r` and remainder `e`. -/
theorem selI1 (r : Fin 32768) (e : Fin 512) : idx_main_v67 (idx_main_v68 (ix2 r e)) = ix3 r (1 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 1 of the input side, as a `[32768, 512]` array, is the specification's gate value. -/
theorem gI1 (r : Fin 32768) (e : Fin 512) : val_main_v68 (F := Ideal) x0 x2 x3 x6 x7 (ix2 r e) = gate x0 x2 x3 x6 x7 r 1 e := by
  rw [val_main_v68_apply, val_main_v67_apply, selI1, gateI]

/-- Gate 1 of the hidden side: the slice keeps gate 1, the reshape drops the unit axis; position
    `r * 512 + e` of the row-major order has quotient `r` and remainder `e`. -/
theorem selH1 (r : Fin 32768) (e : Fin 512) : idx_main_v69 (idx_main_v70 (ix2 r e)) = ix3 r (1 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 1 of the hidden side, as a `[32768, 512]` array, is the specification's gate value. -/
theorem gH1 (r : Fin 32768) (e : Fin 512) : val_main_v70 (F := Ideal) x1 x4 x5 x8 x9 (ix2 r e) = gate x1 x4 x5 x8 x9 r 1 e := by
  rw [val_main_v70_apply, val_main_v69_apply, selH1, gateH]

/-- Gate 2 of the input side: the slice keeps gate 2, the reshape drops the unit axis; position
    `r * 512 + e` of the row-major order has quotient `r` and remainder `e`. -/
theorem selI2 (r : Fin 32768) (e : Fin 512) : idx_main_v78 (idx_main_v79 (ix2 r e)) = ix3 r (2 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 2 of the input side, as a `[32768, 512]` array, is the specification's gate value. -/
theorem gI2 (r : Fin 32768) (e : Fin 512) : val_main_v79 (F := Ideal) x0 x2 x3 x6 x7 (ix2 r e) = gate x0 x2 x3 x6 x7 r 2 e := by
  rw [val_main_v79_apply, val_main_v78_apply, selI2, gateI]

/-- Gate 2 of the hidden side: the slice keeps gate 2, the reshape drops the unit axis; position
    `r * 512 + e` of the row-major order has quotient `r` and remainder `e`. -/
theorem selH2 (r : Fin 32768) (e : Fin 512) : idx_main_v80 (idx_main_v81 (ix2 r e)) = ix3 r (2 : Fin 3) e := by
  funext a
  match a with
  | ⟨0, _⟩ =>
    refine Fin.ext ?_
    show (r.val * 512 + e.val) / 512 = r.val
    have := e.isLt
    omega
  | ⟨1, _⟩ => rfl
  | ⟨2, _⟩ =>
    refine Fin.ext ?_
    show (r.val * 512 + e.val) % 512 = e.val
    have := e.isLt
    omega

/-- Gate 2 of the hidden side, as a `[32768, 512]` array, is the specification's gate value. -/
theorem gH2 (r : Fin 32768) (e : Fin 512) : val_main_v81 (F := Ideal) x1 x4 x5 x8 x9 (ix2 r e) = gate x1 x4 x5 x8 x9 r 2 e := by
  rw [val_main_v81_apply, val_main_v80_apply, selH2, gateH]

/-- The word of 1.0 is the number one: sign 0, biased exponent 127, mantissa 0. -/
theorem one_word : Ideal.ofBits .f32 0x3F800000#32 = 1 := by
  simp [Ideal.ofBits, Ideal.ieee, -EReal.coe_mul]; norm_num

/-- The reset gate: `1 / (1 + exp (−t))` is the logistic function of `t`. -/
theorem resetGate (r : Fin 32768) (e : Fin 512) : val_main_v66 (F := Ideal) x0 x1 x2 x3 x4 x5 x6 x7 x8 x9 (ix2 r e)
    = Ideal.logistic (gate x0 x2 x3 x6 x7 r 0 e + gate x1 x4 x5 x8 x9 r 0 e) := by
  rw [val_main_v66_apply, val_main_v65_apply, val_main_cst_10_apply, val_main_v64_apply, val_main_v63_apply,
    val_main_cst_9_apply, val_main_v62_apply, val_main_v61_apply, val_main_v60_apply, gI0, gH0, Ideal.ofBits_def, one_word]
  rfl

/-- The update gate. -/
theorem updateGate (r : Fin 32768) (e : Fin 512) : val_main_v77 (F := Ideal) x0 x1 x2 x3 x4 x5 x6 x7 x8 x9 (ix2 r e)
    = Ideal.logistic (gate x0 x2 x3 x6 x7 r 1 e + gate x1 x4 x5 x8 x9 r 1 e) := by
  rw [val_main_v77_apply, val_main_v76_apply, val_main_cst_12_apply, val_main_v75_apply, val_main_v74_apply,
    val_main_cst_11_apply, val_main_v73_apply, val_main_v72_apply, val_main_v71_apply, gI1, gH1, Ideal.ofBits_def, one_word]
  rfl

/-- The candidate state. -/
theorem candidate (r : Fin 32768) (e : Fin 512) : val_main_v84 (F := Ideal) x0 x1 x2 x3 x4 x5 x6 x7 x8 x9 (ix2 r e)
    = Ideal.tanh (gate x0 x2 x3 x6 x7 r 2 e + Ideal.logistic (gate x0 x2 x3 x6 x7 r 0 e + gate x1 x4 x5 x8 x9 r 0 e) * gate x1 x4 x5 x8 x9 r 2 e) := by
  rw [val_main_v84_apply, val_main_v83_apply, val_main_v82_apply, resetGate, gI2, gH2]
  rfl

/-- The new state at `(r, e)`. -/
theorem out (r : Fin 32768) (e : Fin 512) : val_main_v89 (F := Ideal) x0 x1 x2 x3 x4 x5 x6 x7 x8 x9 (ix2 r e) = cell x0 x1 x2 x3 x4 x5 x6 x7 x8 x9 r e := by
  rw [val_main_v89_apply, val_main_v87_apply, val_main_v88_apply, val_main_v86_apply, val_main_v85_apply, val_main_cst_13_apply,
    updateGate, candidate]
  rfl

end

/-- The reference program's result is the specified cell, as arrays. -/
theorem ref_eq (x0 x1 : FVec Ideal S32768x512 .f32) (x2 : FVec Ideal S3x512x512 .f32) (x3 : FVec Ideal S3x512 .f32)
    (x4 : FVec Ideal S3x512x512 .f32) (x5 x6 x7 x8 x9 : FVec Ideal S3x512 .f32) :
    Cert.ReferenceIdeal.Read.val_main_v89 (F := Ideal) x0 x1 x2 x3 x4 x5 x6 x7 x8 x9 = Cert.Gru.G x0 x1 x2 x3 x4 x5 x6 x7 x8 x9 := by
  funext i
  obtain ⟨r, e, rfl⟩ : ∃ r e, i = ix2 r e := ⟨i 0, i 1, eq_ix2 i⟩
  rw [out]
  rfl

end Cert.Gru.Ref

end
-- ==== Proof.lean ====
/-
  A gated recurrent cell with layer-normalised gates: the kernel's result is the reference's, on the extended reals.

  Both programs compute, for every batch row `r` and entry `e`, the new state
  `(1 − z) · n + z · h (r, e)` with `rr = logistic (ai 0 + ah 0)`, `z = logistic (ai 1 + ah 1)`,
  `n = tanh (ai 2 + rr · ah 2)`, where `ai g`, `ah g` are the layer-normalised rows of `x Wi_gᵀ + bi_g` and
  `h Wh_gᵀ + bh_g` (Proof/Spec.lean: `Cert.Gru.G`). The reference does it on `[32768, 3, 512]` arrays (a contraction,
  sums over the last axis, broadcasts), the kernel on blocks of 512 batch rows with the three gates side by side as
  1536 columns (one matrix product per side, lane sums over slices of 512 columns). Exact arithmetic makes the two the
  same formula: the roundings to bf16 are the identity, the matrix product into a zero accumulator is the contraction's
  sum, the lane sums are the host's sums, and `logistic t` is by definition `1 / (1 + exp (−t))`. No law of arithmetic
  beyond re-indexing is used, so the inputs' finiteness is never opened.

  * the kernel's result array is `Cert.Gru.G` of the arguments: Proof/KernelLN.lean (one normalisation read at an entry),
    Proof/KernelPay.lean (the body's output block at an entry), Proof/Layout.lean (the flattened parameters),
    Proof/KernelBlocks.lean (each grid point writes one block of rows; the blocks tile the array);
  * the reference's result is `Cert.Gru.G` of the arguments: Proof/RefIsSpec.lean;
  * the three frames are the generated runs; the idealisation rewrote nothing, so `preserves` is `True`.
-/
import proofs.«181213_j34548716929790_2_alg».proof.Defs
import proofs.«181213_j34548716929790_2_alg».proof.Proof.Gen.Kernel
import proofs.«181213_j34548716929790_2_alg».proof.Proof.Gen.Kernel.Frame
import proofs.«181213_j34548716929790_2_alg».proof.Proof.Gen.KernelIdeal
import proofs.«181213_j34548716929790_2_alg».proof.Proof.Gen.KernelIdeal.Frame
import proofs.«181213_j34548716929790_2_alg».proof.Proof.Gen.KernelIdeal.Value
import proofs.«181213_j34548716929790_2_alg».proof.Proof.Gen.ReferenceIdeal
import proofs.«181213_j34548716929790_2_alg».proof.Proof.Gen.ReferenceIdeal.Run
import proofs.«181213_j34548716929790_2_alg».proof.Proof.Gen.ReferenceIdeal.Read
import proofs.«181213_j34548716929790_2_alg».proof.Proof.Gen.Pre_finite_inputs
import proofs.«181213_j34548716929790_2_alg».proof.Proof.KernelBlocks
import proofs.«181213_j34548716929790_2_alg».proof.Proof.RefIsSpec
import Idealize.ShloMosaic.Adequacy
import Idealize.ShloMosaic.Init

noncomputable section

namespace Cert.Proof

open Idealize.ShloMosaic Idealize.SL.Sem

/-- The kernel as printed terminates without a fault and leaves its arguments unchanged. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference terminates and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the ten arguments both programs end with the specified cell of those arguments. -/
theorem algebraic : Cert.algebraic_KernelIdeal_ReferenceIdeal := by
  intro m ρ m' ρ' _ hagree
  refine ⟨fun c => Cert.Gru.Blocks.Gm m c, Cert.Gru.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v89_eq, Cert.Gru.Ref.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
